-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v89)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v89) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x6 : Shape := ⟨2, ![128, 6]⟩
abbrev S6 : Shape := ⟨1, ![6]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x6 : S_.BroadcastsInDim S128x6 (![] : Fin 0 → Fin S128x6.rank)
  reducesTo_S128x6_S_d0_1 : S128x6.ReducesTo [0, 1] S_
  bcast_S_S6 : S_.BroadcastsInDim S6 (![] : Fin 0 → Fin S6.rank)
  reducesTo_S6_S_d0 : S6.ReducesTo [0] S_

variable [Facts]

def fn_part2 {F : FTy → Type} [FloatOps F] (main_arg9 : FVec F S128x6 .f32) (main_arg10 : FVec F S6 .f32) (main_v33 : IVec S_ 1) : IVec S_ 1 :=
  let main_v34 : FVec F S128x6 .f32 := Host.absf main_arg9
  let main_cst_12 : FVec F S_ .f32 := constant S_ .f32 0x7F800000#32
  let main_v35 : FVec F S128x6 .f32 := broadcastInDim S128x6 ![] bcast_S_S128x6 main_cst_12
  let main_v36 : IVec S128x6 1 := cmpf .olt main_v34 main_v35
  let main_c_13 : IVec S_ 1 := constantI S_ 1 1#1
  let main_v37 : IVec S_ 1 := (fun x v => Host.reduce IntOp.andi x v reducesTo_S128x6_S_d0_1 h_S_) main_v36 main_c_13
  let main_v38 : IVec S_ 1 := andi main_v33 main_v37
  let main_v39 : FVec F S6 .f32 := Host.absf main_arg10
  let main_cst_14 : FVec F S_ .f32 := constant S_ .f32 0x7F800000#32
  let main_v40 : FVec F S6 .f32 := broadcastInDim S6 ![] bcast_S_S6 main_cst_14
  let main_v41 : IVec S6 1 := cmpf .olt main_v39 main_v40
  let main_c_15 : IVec S_ 1 := constantI S_ 1 1#1
  let main_v42 : IVec S_ 1 := (fun x v => Host.reduce IntOp.andi x v reducesTo_S6_S_d0 h_S_) main_v41 main_c_15
  let main_v43 : IVec S_ 1 := andi main_v38 main_v42
  main_v43

def fn_part1 {F : FTy → Type} [FloatOps F] (main_arg6 : FVec F S128 .f32) (main_arg7 : FVec F S128x128 .f32) (main_arg8 : FVec F S128 .f32) (main_arg9 : FVec F S128x6 .f32) (main_arg10 : FVec F S6 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S50000x128 .f32) (main_arg1 : IVec S2x800000 32) (main_arg2 : IVec S50000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x6 .f32) (main_arg10 : FVec F S6 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x6 : Shape := ⟨2, ![128, 6]⟩
abbrev S6 : Shape := ⟨1, ![6]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S5000x128 : Shape := ⟨2, ![5000, 128]⟩
abbrev S800000x128 : Shape := ⟨2, ![800000, 128]⟩
abbrev S1x128 : Shape := ⟨2, ![1, 128]⟩
abbrev S5000x1 : Shape := ⟨2, ![5000, 1]⟩
abbrev S1x6 : Shape := ⟨2, ![1, 6]⟩
abbrev S50000x6 : Shape := ⟨2, ![50000, 6]⟩
abbrev S5000x6 : Shape := ⟨2, ![5000, 6]⟩
abbrev S64x6 : Shape := ⟨2, ![64, 6]⟩
abbrev S64 : Shape := ⟨1, ![64]⟩
abbrev S64x1 : Shape := ⟨2, ![64, 1]⟩

abbrev nBuf : Space → Nat
  | .hbm => 121
  | .vmem => 48
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x6, .f32⟩
  | .hbm, ⟨10, _⟩ => ⟨S6, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .f32⟩
  | .hbm, ⟨16, _⟩ => ⟨S800000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000, .f32⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S800000, .f32⟩
  | .hbm, ⟨43, _⟩ => ⟨S800000, .f32⟩
  | .hbm, ⟨44, _⟩ => ⟨S50000, .f32⟩
  | .hbm, ⟨45, _⟩ => ⟨S50000x1, .f32⟩
  | .hbm, ⟨46, _⟩ => ⟨S50000x128, .f32⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x128, .f32⟩
  | .hbm, ⟨56, _⟩ => ⟨S800000x1, .f32⟩
  | .hbm, ⟨57, _⟩ => ⟨S800000x128, .f32⟩
  | .hbm, ⟨58, _⟩ => ⟨S800000x128, .f32⟩
  | .hbm, ⟨59, _⟩ => ⟨S_, .f32⟩
  | .hbm, ⟨60, _⟩ => ⟨S50000x128, .f32⟩
  | .hbm, ⟨61, _⟩ => ⟨S800000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .i32⟩
  | .hbm, ⟨67, _⟩ => ⟨S800000, .i32⟩
  | .hbm, ⟨68, _⟩ => ⟨S800000, .i1⟩
  | .hbm, ⟨69, _⟩ => ⟨S_, .i32⟩
  | .hbm, ⟨70, _⟩ => ⟨S800000, .i32⟩
  | .hbm, ⟨71, _⟩ => ⟨S800000, .i32⟩
  | .hbm, ⟨72, _⟩ => ⟨S800000, .i32⟩
  | .hbm, ⟨73, _⟩ => ⟨S800000x1, .i32⟩
  | .hbm, ⟨74, _⟩ => ⟨S800000x128, .f32⟩
  | .hbm, ⟨75, _⟩ => ⟨S800000x1, .f32⟩
  | .hbm, ⟨76, _⟩ => ⟨S800000x128, .f32⟩
  | .hbm, ⟨77, _⟩ => ⟨S800000x128, .f32⟩
  | .hbm, ⟨78, _⟩ => ⟨S_, .f32⟩
  | .hbm, ⟨79, _⟩ => ⟨S50000x128, .f32⟩
  | .hbm, ⟨80, _⟩ => ⟨S800000x1, .i32⟩
  | .hbm, ⟨81, _⟩ => ⟨S50000x128, .f32⟩
  | .hbm, ⟨82, _⟩ => ⟨S1x128, .f32⟩
  | .hbm, ⟨83, _⟩ => ⟨S50000x128, .f32⟩
  | .hbm, ⟨84, _⟩ => ⟨S50000x128, .f32⟩
  | .hbm, ⟨85, _⟩ => ⟨S_, .i32⟩
  | .hbm, ⟨86, _⟩ => ⟨S800000, .i32⟩
  | .hbm, ⟨87, _⟩ => ⟨S800000, .i1⟩
  | .hbm, ⟨88, _⟩ => ⟨S_, .i32⟩
  | .hbm, ⟨89, _⟩ => ⟨S800000, .i32⟩
  | .hbm, ⟨90, _⟩ => ⟨S800000, .i32⟩
  | .hbm, ⟨91, _⟩ => ⟨S800000, .i32⟩
  | .hbm, ⟨92, _⟩ => ⟨S800000x1, .i32⟩
  | .hbm, ⟨93, _⟩ => ⟨S800000x128, .f32⟩
  | .hbm, ⟨94, _⟩ => ⟨S800000x1, .f32⟩
  | .hbm, ⟨95, _⟩ => ⟨S800000x128, .f32⟩
  | .hbm, ⟨96, _⟩ => ⟨S800000x128, .f32⟩
  | .hbm, ⟨97, _⟩ => ⟨S_, .f32⟩
  | .hbm, ⟨98, _⟩ => ⟨S50000x128, .f32⟩
  | .hbm, ⟨99, _⟩ => ⟨S800000x1, .i32⟩
  | .hbm, ⟨100, _⟩ => ⟨S50000x128, .f32⟩
  | .hbm, ⟨101, _⟩ => ⟨S1x128, .f32⟩
  | .hbm, ⟨102, _⟩ => ⟨S50000x128, .f32⟩
  | .hbm, ⟨103, _⟩ => ⟨S1x6, .f32⟩
  | .hbm, ⟨104, _⟩ => ⟨S50000x6, .f32⟩
  | .hbm, ⟨105, _⟩ => ⟨S_, .f32⟩
  | .hbm, ⟨106, _⟩ => ⟨S64x6, .f32⟩
  | .hbm, ⟨107, _⟩ => ⟨S50000x1, .i32⟩
  | .hbm, ⟨108, _⟩ => ⟨S64x6, .f32⟩
  | .hbm, ⟨109, _⟩ => ⟨S_, .f32⟩
  | .hbm, ⟨110, _⟩ => ⟨S50000, .f32⟩
  | .hbm, ⟨111, _⟩ => ⟨S_, .f32⟩
  | .hbm, ⟨112, _⟩ => ⟨S64, .f32⟩
  | .hbm, ⟨113, _⟩ => ⟨S50000x1, .i32⟩
  | .hbm, ⟨114, _⟩ => ⟨S64, .f32⟩
  | .hbm, ⟨115, _⟩ => ⟨S_, .f32⟩
  | .hbm, ⟨116, _⟩ => ⟨S64, .f32⟩
  | .hbm, ⟨117, _⟩ => ⟨S64, .f32⟩
  | .hbm, ⟨118, _⟩ => ⟨S64x1, .f32⟩
  | .hbm, ⟨119, _⟩ => ⟨S64x6, .f32⟩
  | .hbm, ⟨120, _⟩ => ⟨S64x6, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x1, .f32⟩
  | .local _ .vmem, ⟨24, _⟩ => ⟨S5000x1, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x1, .f32⟩
  | .local _ .vmem, ⟨38, _⟩ => ⟨S5000x1, .f32⟩
  | .local _ .vmem, ⟨39, _⟩ => ⟨S1x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S128x6, .f32⟩
  | .local _ .vmem, ⟨45, _⟩ => ⟨S1x6, .f32⟩
  | .local _ .vmem, ⟨46, _⟩ => ⟨S5000x6, .f32⟩
  | .local _ .vmem, ⟨47, _⟩ => ⟨S5000x6, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_5 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_7 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_c_8 : Ref sig .tc := ⟨.hbm, 66, rfl⟩
abbrev main_v45 : Ref sig .tc := ⟨.hbm, 67, rfl⟩
abbrev main_v46 : Ref sig .tc := ⟨.hbm, 68, rfl⟩
abbrev main_c_9 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_10 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_c_11 : Ref sig .tc := ⟨.hbm, 85, rfl⟩
abbrev main_v61 : Ref sig .tc := ⟨.hbm, 86, rfl⟩
abbrev main_v62 : Ref sig .tc := ⟨.hbm, 87, rfl⟩
abbrev main_c_12 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_13 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_cst_14 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_cst_15 : Ref sig .tc := ⟨.hbm, 109, rfl⟩
abbrev main_v81 : Ref sig .tc := ⟨.hbm, 110, rfl⟩
abbrev main_cst_16 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_cst_17 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg2_0 : Ref sig .tc := ⟨.vmem, 45, rfl⟩
abbrev cc6_stg3_0 : Ref sig .tc := ⟨.vmem, 46, rfl⟩
abbrev cc6_stg3_1 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc5_sem3_0 : DmaSem sig := 39
abbrev cc5_sem4_0 : DmaSem sig := 40
abbrev cc5_sem4_1 : DmaSem sig := 41
abbrev cc6_sem0_0 : DmaSem sig := 42
abbrev cc6_sem0_1 : DmaSem sig := 43
abbrev cc6_sem1_0 : DmaSem sig := 44
abbrev cc6_sem2_0 : DmaSem sig := 45
abbrev cc6_sem3_0 : DmaSem sig := 46
abbrev cc6_sem3_1 : DmaSem sig := 47

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x6 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x6 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x6 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S5000x1_S5000x128 : S5000x1.Broadcasts S5000x128
  broadcasts_S1x128_S5000x128 : S1x128.Broadcasts S5000x128
  shapeCasts_S6_S1x6 : S6.ShapeCasts S1x6
  inb_S128x6_S128x6_0_0 : ∀ a, (![0, 0] : Fin 2 → Nat) a + S128x6.size a ≤ S128x6.size a
  h_S128x6 : 0 < S128x6.numel
  inb_S1x6_S1x6_0_0 : ∀ a, (![0, 0] : Fin 2 → Nat) a + S1x6.size a ≤ S1x6.size a
  h_S1x6 : 0 < S1x6.numel
  shapeCasts_S1x6_S1x6 : S1x6.ShapeCasts S1x6
  broadcasts_S1x6_S5000x6 : S1x6.Broadcasts S5000x6
  inb_S5000x6_S5000x6_0_0 : ∀ a, (![0, 0] : Fin 2 → Nat) a + S5000x6.size a ≤ S5000x6.size a
  h_S5000x6 : 0 < S5000x6.numel
  bcast_S_S64x6 : S_.BroadcastsInDim S64x6 (![] : Fin 0 → Fin S64x6.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x6_0_1 : S64x1.BroadcastsInDim S64x6 (![0, 1] : Fin 2 → Fin S64x6.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x6_S5000x6_1_0_0_1_n_n_wf : DotDims.WF S5000x128 S128x6 S5000x6 [1] [0] [0] [1] [] []
  scatter_S64x6_S50000x1_S50000x6_1_0_0_1_wf : ScatterDims.WF S64x6 S50000x1 S50000x6 [1] [0] [0] 1
  scatter_S64_S50000x1_S50000_n_0_0_1_wf : ScatterDims.WF S64 S50000x1 S50000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S50000x128.size a
  hwx3_4 : ∀ i : grid3.Coords, EltTy.bits .f32 = 32 ∨ (Rect.block (s := S50000x128) S5000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S50000x128.size a
  hwx4_2 : ∀ i : grid4.Coords, EltTy.bits .f32 = 32 ∨ (Rect.block (s := S50000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S50000x128.size a
  hwx5_1 : ∀ i : grid5.Coords, EltTy.bits .f32 = 32 ∨ (Rect.block (s := S50000x128) S5000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S50000x1.size a
  hwx5_2 : ∀ i : grid5.Coords, EltTy.bits .f32 = 32 ∨ (Rect.block (s := S50000x1) S5000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x128.size a ≤ S50000x128.size a
  hwx5_4 : ∀ i : grid5.Coords, EltTy.bits .f32 = 32 ∨ (Rect.block (s := S50000x128) S5000x128.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x6.size a ≤ S128x6.size a
  hwx6_1 : ∀ i : grid6.Coords, EltTy.bits .f32 = 32 ∨ (Rect.block (s := S128x6) S128x6.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x6.size a ≤ S1x6.size a
  hwx6_2 : ∀ i : grid6.Coords, EltTy.bits .f32 = 32 ∨ (Rect.block (s := S1x6) S1x6.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x6.size a ≤ S50000x6.size a
  hwx6_3 : ∀ i : grid6.Coords, EltTy.bits .f32 = 32 ∨ (Rect.block (s := S50000x6) S5000x6.size (cc6_transform_3 i) (hinb6_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x6_S5000x6_1_0_0_1_n_n : DotDims S5000x128 S128x6 S5000x6 where
  lhsContracting := [1]
  rhsContracting := [0]
  lhsNonContracting := [0]
  rhsNonContracting := [1]
  lhsBatch := []
  rhsBatch := []
  wf := dot_S5000x128_S128x6_S5000x6_1_0_0_1_n_n_wf
def scatter_S64x6_S50000x1_S50000x6_1_0_0_1 : ScatterDims S64x6 S50000x1 S50000x6 where
  updateWindowDims := [1]
  insertedWindowDims := [0]
  scatterDimsToOperandDims := [0]
  indexVectorDim := 1
  wf := scatter_S64x6_S50000x1_S50000x6_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v57) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v27) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v58) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v59) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v59) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v60) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v73) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v60) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v27) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v74) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v75) S5000x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v75) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg9) S128x6.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v76) S1x6.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v77) S5000x6.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x6 : Shape := ⟨2, ![128, 6]⟩
abbrev S6 : Shape := ⟨1, ![6]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S50000x6 : Shape := ⟨2, ![50000, 6]⟩
abbrev S1x6 : Shape := ⟨2, ![1, 6]⟩
abbrev S64x6 : Shape := ⟨2, ![64, 6]⟩
abbrev S64 : Shape := ⟨1, ![64]⟩
abbrev S64x1 : Shape := ⟨2, ![64, 1]⟩

abbrev nBuf : Space → Nat
  | .hbm => 141
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x6, .f32⟩
  | 10 => ⟨S6, .f32⟩
  | 11 => ⟨S1x800000, .i32⟩
  | 12 => ⟨S800000, .i32⟩
  | 13 => ⟨S1x800000, .i32⟩
  | 14 => ⟨S800000, .i32⟩
  | 15 => ⟨S_, .f32⟩
  | 16 => ⟨S800000, .f32⟩
  | 17 => ⟨S_, .f32⟩
  | 18 => ⟨S50000, .f32⟩
  | 19 => ⟨S800000x1, .i32⟩
  | 20 => ⟨S50000, .f32⟩
  | 21 => ⟨S_, .f32⟩
  | 22 => ⟨S50000, .f32⟩
  | 23 => ⟨S50000, .f32⟩
  | 24 => ⟨S50000, .f32⟩
  | 25 => ⟨S_, .i32⟩
  | 26 => ⟨S800000, .i32⟩
  | 27 => ⟨S800000, .i1⟩
  | 28 => ⟨S_, .i32⟩
  | 29 => ⟨S800000, .i32⟩
  | 30 => ⟨S800000, .i32⟩
  | 31 => ⟨S800000, .i32⟩
  | 32 => ⟨S800000x1, .i32⟩
  | 33 => ⟨S800000, .f32⟩
  | 34 => ⟨S_, .i32⟩
  | 35 => ⟨S800000, .i32⟩
  | 36 => ⟨S800000, .i1⟩
  | 37 => ⟨S_, .i32⟩
  | 38 => ⟨S800000, .i32⟩
  | 39 => ⟨S800000, .i32⟩
  | 40 => ⟨S800000, .i32⟩
  | 41 => ⟨S800000x1, .i32⟩
  | 42 => ⟨S800000, .f32⟩
  | 43 => ⟨S800000, .f32⟩
  | 44 => ⟨S50000, .f32⟩
  | 45 => ⟨S50000x128, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000x128, .f32⟩
  | 55 => ⟨S800000x1, .f32⟩
  | 56 => ⟨S800000x128, .f32⟩
  | 57 => ⟨S800000x128, .f32⟩
  | 58 => ⟨S_, .f32⟩
  | 59 => ⟨S50000x128, .f32⟩
  | 60 => ⟨S800000x1, .i32⟩
  | 61 => ⟨S50000x128, .f32⟩
  | 62 => ⟨S50000x1, .f32⟩
  | 63 => ⟨S50000x128, .f32⟩
  | 64 => ⟨S50000x128, .f32⟩
  | 65 => ⟨S50000x128, .f32⟩
  | 66 => ⟨S1x128, .f32⟩
  | 67 => ⟨S50000x128, .f32⟩
  | 68 => ⟨S50000x128, .f32⟩
  | 69 => ⟨S50000x128, .f32⟩
  | 70 => ⟨S50000x128, .f32⟩
  | 71 => ⟨S_, .i32⟩
  | 72 => ⟨S800000, .i32⟩
  | 73 => ⟨S800000, .i1⟩
  | 74 => ⟨S_, .i32⟩
  | 75 => ⟨S800000, .i32⟩
  | 76 => ⟨S800000, .i32⟩
  | 77 => ⟨S800000, .i32⟩
  | 78 => ⟨S800000x1, .i32⟩
  | 79 => ⟨S800000x128, .f32⟩
  | 80 => ⟨S800000x1, .f32⟩
  | 81 => ⟨S800000x128, .f32⟩
  | 82 => ⟨S800000x128, .f32⟩
  | 83 => ⟨S_, .f32⟩
  | 84 => ⟨S50000x128, .f32⟩
  | 85 => ⟨S800000x1, .i32⟩
  | 86 => ⟨S50000x128, .f32⟩
  | 87 => ⟨S50000x1, .f32⟩
  | 88 => ⟨S50000x128, .f32⟩
  | 89 => ⟨S50000x128, .f32⟩
  | 90 => ⟨S50000x128, .f32⟩
  | 91 => ⟨S1x128, .f32⟩
  | 92 => ⟨S50000x128, .f32⟩
  | 93 => ⟨S50000x128, .f32⟩
  | 94 => ⟨S50000x128, .f32⟩
  | 95 => ⟨S50000x128, .f32⟩
  | 96 => ⟨S_, .i32⟩
  | 97 => ⟨S800000, .i32⟩
  | 98 => ⟨S800000, .i1⟩
  | 99 => ⟨S_, .i32⟩
  | 100 => ⟨S800000, .i32⟩
  | 101 => ⟨S800000, .i32⟩
  | 102 => ⟨S800000, .i32⟩
  | 103 => ⟨S800000x1, .i32⟩
  | 104 => ⟨S800000x128, .f32⟩
  | 105 => ⟨S800000x1, .f32⟩
  | 106 => ⟨S800000x128, .f32⟩
  | 107 => ⟨S800000x128, .f32⟩
  | 108 => ⟨S_, .f32⟩
  | 109 => ⟨S50000x128, .f32⟩
  | 110 => ⟨S800000x1, .i32⟩
  | 111 => ⟨S50000x128, .f32⟩
  | 112 => ⟨S50000x1, .f32⟩
  | 113 => ⟨S50000x128, .f32⟩
  | 114 => ⟨S50000x128, .f32⟩
  | 115 => ⟨S50000x128, .f32⟩
  | 116 => ⟨S1x128, .f32⟩
  | 117 => ⟨S50000x128, .f32⟩
  | 118 => ⟨S50000x128, .f32⟩
  | 119 => ⟨S50000x128, .f32⟩
  | 120 => ⟨S50000x6, .f32⟩
  | 121 => ⟨S1x6, .f32⟩
  | 122 => ⟨S50000x6, .f32⟩
  | 123 => ⟨S50000x6, .f32⟩
  | 124 => ⟨S50000x6, .f32⟩
  | 125 => ⟨S_, .f32⟩
  | 126 => ⟨S64x6, .f32⟩
  | 127 => ⟨S50000x1, .i32⟩
  | _ => ⟨S50000x128, .f32⟩

abbrev hbmTy0_1 (i : Nat) : BufTy := match i % 128 with
  | 0 => ⟨S64x6, .f32⟩
  | 1 => ⟨S_, .f32⟩
  | 2 => ⟨S50000, .f32⟩
  | 3 => ⟨S_, .f32⟩
  | 4 => ⟨S64, .f32⟩
  | 5 => ⟨S50000x1, .i32⟩
  | 6 => ⟨S64, .f32⟩
  | 7 => ⟨S_, .f32⟩
  | 8 => ⟨S64, .f32⟩
  | 9 => ⟨S64, .f32⟩
  | 10 => ⟨S64x1, .f32⟩
  | 11 => ⟨S64x6, .f32⟩
  | 12 => ⟨S64x6, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_c_6 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_7 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_c_8 : Ref sig .tc := ⟨.hbm, 71, rfl⟩
abbrev main_v50 : Ref sig .tc := ⟨.hbm, 72, rfl⟩
abbrev main_v51 : Ref sig .tc := ⟨.hbm, 73, rfl⟩
abbrev main_c_9 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_10 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_c_11 : Ref sig .tc := ⟨.hbm, 96, rfl⟩
abbrev main_v72 : Ref sig .tc := ⟨.hbm, 97, rfl⟩
abbrev main_v73 : Ref sig .tc := ⟨.hbm, 98, rfl⟩
abbrev main_c_12 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_cst_13 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_cst_14 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_cst_15 : Ref sig .tc := ⟨.hbm, 129, rfl⟩
abbrev main_v101 : Ref sig .tc := ⟨.hbm, 130, rfl⟩
abbrev main_cst_16 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_cst_17 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S6_S1x6_1 : S6.BroadcastsInDim S1x6 (![1] : Fin 1 → Fin S1x6.rank)
  bcast_S1x6_S50000x6_0_1 : S1x6.BroadcastsInDim S50000x6 (![0, 1] : Fin 2 → Fin S50000x6.rank)
  bcast_S_S64x6 : S_.BroadcastsInDim S64x6 (![] : Fin 0 → Fin S64x6.rank)
  bcast_S_S64 : S_.BroadcastsInDim S64 (![] : Fin 0 → Fin S64.rank)
  bcast_S64_S64x1_0 : S64.BroadcastsInDim S64x1 (![0] : Fin 1 → Fin S64x1.rank)
  bcast_S64x1_S64x6_0_1 : S64x1.BroadcastsInDim S64x6 (![0, 1] : Fin 2 → Fin S64x6.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x6_S50000x6_1_0_0_1_n_n_wf : DotDims.WF S50000x128 S128x6 S50000x6 [1] [0] [0] [1] [] []
  scatter_S64x6_S50000x1_S50000x6_1_0_0_1_wf : ScatterDims.WF S64x6 S50000x1 S50000x6 [1] [0] [0] 1
  scatter_S64_S50000x1_S50000_n_0_0_1_wf : ScatterDims.WF S64 S50000x1 S50000 [] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x6_S50000x6_1_0_0_1_n_n : DotDims S50000x128 S128x6 S50000x6 where
  lhsContracting := [1]
  rhsContracting := [0]
  lhsNonContracting := [0]
  rhsNonContracting := [1]
  lhsBatch := []
  rhsBatch := []
  wf := dot_S50000x128_S128x6_S50000x6_1_0_0_1_n_n_wf
def scatter_S64x6_S50000x1_S50000x6_1_0_0_1 : ScatterDims S64x6 S50000x1 S50000x6 where
  updateWindowDims := [1]
  insertedWindowDims := [0]
  scatterDimsToOperandDims := [0]
  indexVectorDim := 1
  wf := scatter_S64x6_S50000x1_S50000x6_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf

class Facts : Prop extends Facts₀ where

variable [Facts]
-- ==== Proof.Spec.lean ====
/-
  The graph network both programs compute, as whole-array functions of its inputs.

  An edge list gives each edge a source and a destination node.  A convolution layer takes node features `h`, forms
  `z = h · W`, sends along every edge the source's row of `z` scaled by the edge's weight, adds what arrives at each
  node, adds the node's own row of `z` scaled by the node's weight and the bias row, and applies tanh.  Three such
  layers, a last linear map with bias and tanh, and then the mean of the node outputs over each graph of the batch.

  Everything is written with the host's own operations, in the order the reference applies them, so that the
  reference's result is this term on the nose; the kernel's side is met by reading each dense step index by index.
-/
import proofs.«113640_j1889785611050_1_alg».proof.ReferenceIdeal
import Idealize.ShloMosaic.PureOps.Ideal

noncomputable section

namespace Cert.Gcn

open Idealize.ShloMosaic Cert.ReferenceIdeal

variable {F : FTy → Type} [FloatOps F] [Cert.ReferenceIdeal.Facts]

open Cert.ReferenceIdeal.Facts₀ Cert.ReferenceIdeal.Facts

/-- The contents of a buffer of a given shape and element type. -/
abbrev Arr (F : FTy → Type) (T : BufTy) : Type := T.Contents (Elt F)

/-- Row 0 of the edge list: each edge's source node. -/
def srcOf (e : Arr F ⟨S2x800000, .i32⟩) : Arr F ⟨S800000, .i32⟩ :=
  shapeCast _ (extractStridedSlice S1x800000 ![0, 0] e slices_S2x800000_S1x800000_0_0) shapeCasts_S1x800000_S800000

/-- Row 1 of the edge list: each edge's destination node. -/
def dstOf (e : Arr F ⟨S2x800000, .i32⟩) : Arr F ⟨S800000, .i32⟩ :=
  shapeCast _ (extractStridedSlice S1x800000 ![1, 0] e slices_S2x800000_S1x800000_1_0) shapeCasts_S1x800000_S800000

/-- A node index with a negative value counted from the end, as a one-column index array. -/
def wrapCol (v : Arr F ⟨S800000, .i32⟩) : Arr F ⟨S800000x1, .i32⟩ :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 50000#32))) v)

/-- The inverse square root of each node's degree, the self loop counted. -/
def degInv (dst : Arr F ⟨S800000, .i32⟩) : Arr F ⟨S50000, .f32⟩ :=
  Host.rsqrt (addf
    (Host.scatterAdd scatter_S50000_S800000x1_S800000_n_0_0_1
      (broadcastInDim S50000 ![] bcast_S_S50000 (constant S_ .f32 0x00000000#32))
      (broadcastInDim S800000x1 ![0] bcast_S800000_S800000x1_0 dst)
      (broadcastInDim S800000 ![] bcast_S_S800000 (constant S_ .f32 0x3F800000#32)))
    (broadcastInDim S50000 ![] bcast_S_S50000 (constant S_ .f32 0x3F800000#32)))

/-- Each edge's weight: the product of its two endpoints' inverse root degrees. -/
def edgeNorm (src dst : Arr F ⟨S800000, .i32⟩) : Arr F ⟨S800000, .f32⟩ :=
  mulf (Host.gather gather_S50000_S800000x1_S800000_n_0_n_n_0_1_1 (degInv dst) (wrapCol src))
    (Host.gather gather_S50000_S800000x1_S800000_n_0_n_n_0_1_1 (degInv dst) (wrapCol dst))

/-- Each node's own weight: its inverse degree. -/
def selfNorm (dst : Arr F ⟨S800000, .i32⟩) : Arr F ⟨S50000, .f32⟩ := mulf (degInv dst) (degInv dst)

/-- Node features times a square weight matrix. -/
def mm (h : Arr F ⟨S50000x128, .f32⟩) (w : Arr F ⟨S128x128, .f32⟩) : Arr F ⟨S50000x128, .f32⟩ :=
  Host.dotGeneral dot_S50000x128_S128x128_S50000x128_1_0_0_1_n_n none h w

/-- What arrives at each node: the sum over its incoming edges of the source's row, scaled by the edge's weight. -/
def aggregate (src dst : Arr F ⟨S800000, .i32⟩) (nrm : Arr F ⟨S800000, .f32⟩) (z : Arr F ⟨S50000x128, .f32⟩) : Arr F ⟨S50000x128, .f32⟩ :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 dst)
    (mulf (Host.gather gather_S50000x128_S800000x1_S800000x128_1_0_n_n_0_1_1128 z (wrapCol src))
      (broadcastInDim S800000x128 ![0, 1] bcast_S800000x1_S800000x128_0_1
        (broadcastInDim S800000x1 ![0] bcast_S800000_S800000x1_0 nrm)))

/-- The arrivals, the node's own scaled row and the bias row added in that order, then tanh. -/
def combine (a z : Arr F ⟨S50000x128, .f32⟩) (ns : Arr F ⟨S50000, .f32⟩) (b : Arr F ⟨S128, .f32⟩) : Arr F ⟨S50000x128, .f32⟩ :=
  Host.tanh (addf
    (addf a (mulf z (broadcastInDim S50000x128 ![0, 1] bcast_S50000x1_S50000x128_0_1
      (broadcastInDim S50000x1 ![0] bcast_S50000_S50000x1_0 ns))))
    (broadcastInDim S50000x128 ![0, 1] bcast_S1x128_S50000x128_0_1 (broadcastInDim S1x128 ![1] bcast_S128_S1x128_1 b)))

/-- One convolution layer. -/
def layer (src dst : Arr F ⟨S800000, .i32⟩) (h : Arr F ⟨S50000x128, .f32⟩) (w : Arr F ⟨S128x128, .f32⟩) (b : Arr F ⟨S128, .f32⟩) :
    Arr F ⟨S50000x128, .f32⟩ :=
  combine (aggregate src dst (edgeNorm src dst) (mm h w)) (mm h w) (selfNorm dst) b

/-- The last linear map with its bias, then tanh. -/
def head (h : Arr F ⟨S50000x128, .f32⟩) (w : Arr F ⟨S128x6, .f32⟩) (b : Arr F ⟨S6, .f32⟩) : Arr F ⟨S50000x6, .f32⟩ :=
  Host.tanh (addf (Host.dotGeneral dot_S50000x128_S128x6_S50000x6_1_0_0_1_n_n none h w)
    (broadcastInDim S50000x6 ![0, 1] bcast_S1x6_S50000x6_0_1 (broadcastInDim S1x6 ![1] bcast_S6_S1x6_1 b)))

/-- The mean of the node outputs over each graph: the sum per graph over the number of its nodes, at least one. -/
def pool (batch : Arr F ⟨S50000, .i32⟩) (y : Arr F ⟨S50000x6, .f32⟩) : Arr F ⟨S64x6, .f32⟩ :=
  Host.divf
    (Host.scatterAdd scatter_S64x6_S50000x1_S50000x6_1_0_0_1
      (broadcastInDim S64x6 ![] bcast_S_S64x6 (constant S_ .f32 0x00000000#32))
      (broadcastInDim S50000x1 ![0] bcast_S50000_S50000x1_0 batch) y)
    (broadcastInDim S64x6 ![0, 1] bcast_S64x1_S64x6_0_1 (broadcastInDim S64x1 ![0] bcast_S64_S64x1_0
      (maximumf
        (Host.scatterAdd scatter_S64_S50000x1_S50000_n_0_0_1
          (broadcastInDim S64 ![] bcast_S_S64 (constant S_ .f32 0x00000000#32))
          (broadcastInDim S50000x1 ![0] bcast_S50000_S50000x1_0 batch)
          (broadcastInDim S50000 ![] bcast_S_S50000 (constant S_ .f32 0x3F800000#32)))
        (broadcastInDim S64 ![] bcast_S_S64 (constant S_ .f32 0x3F800000#32)))))

/-- The whole network. -/
def net (x : Arr F ⟨S50000x128, .f32⟩) (e : Arr F ⟨S2x800000, .i32⟩) (batch : Arr F ⟨S50000, .i32⟩)
    (w0 : Arr F ⟨S128x128, .f32⟩) (b0 : Arr F ⟨S128, .f32⟩) (w1 : Arr F ⟨S128x128, .f32⟩) (b1 : Arr F ⟨S128, .f32⟩)
    (w2 : Arr F ⟨S128x128, .f32⟩) (b2 : Arr F ⟨S128, .f32⟩) (wl : Arr F ⟨S128x6, .f32⟩) (bl : Arr F ⟨S6, .f32⟩) : Arr F ⟨S64x6, .f32⟩ :=
  pool batch (head (layer (srcOf e) (dstOf e) (layer (srcOf e) (dstOf e) (layer (srcOf e) (dstOf e) x w0 b0) w1 b1) w2 b2) wl bl)

end Cert.Gcn

end
-- ==== Proof.RefNet.lean ====
/-
  The reference program's result is the network of Spec.lean applied to its arguments: its operations, composed, are
  that term as written.
-/
import proofs.«113640_j1889785611050_1_alg».proof.Proof.Gen.ReferenceIdeal.Run
import proofs.«113640_j1889785611050_1_alg».proof.Proof.Spec

set_option maxRecDepth 16384

noncomputable section

namespace Cert.ReferenceIdeal.RefNet

open Idealize.ShloMosaic Idealize.ShloMosaic.TcCoe Idealize.SL.Sem Cert.ReferenceIdeal Cert.ReferenceIdeal.Gen

variable {F : FTy → Type} [FloatOps F]

/-- The reference's composed result term is the network at the launch contents of its eleven arguments. -/
theorem res_eq (m : (ℓ : Loc nD τ sig) → Buf (Elt F) ℓ) (c : Dev nD) :
    Cert.ReferenceIdeal.Value.res_main_v109 (F := F) m c
      = Cert.Gcn.net (F := F) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) := by
  unfold Cert.ReferenceIdeal.Value.res_main_v109 Cert.Gcn.net Cert.Gcn.pool Cert.Gcn.head Cert.Gcn.layer Cert.Gcn.combine
    Cert.Gcn.aggregate Cert.Gcn.mm Cert.Gcn.selfNorm Cert.Gcn.edgeNorm Cert.Gcn.degInv Cert.Gcn.wrapCol Cert.Gcn.srcOf
    Cert.Gcn.dstOf
  rfl

end Cert.ReferenceIdeal.RefNet

end
-- ==== Proof.RunMain.lean ====
/-
  The kernel program's run with its result named.

  The program is seven kernel launches among stretches of host operations.  From any launch memory every weakly fair
  execution terminates without a fault; the contents of every buffer at each boundary between two segments are a fold
  from the launch memory (a stretch applies its operations, a launch leaves its output array at what its grid points
  wrote back), and the final memory holds, at every buffer, the last boundary's contents.  Read at the result buffer
  that gives the result as the last fold's value there; read at an argument it gives the argument as launched.
-/
import proofs.«113640_j1889785611050_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the last
    boundary's contents and every argument as launched. -/
theorem run_main : θ_run defs (onTc (τ := τ) (main (F := F))) ⟨m, fun _ => 0, ρ⟩ (fun r => ∀ c : Dev nD,
      r.2.mem ((c.tc : Thread nD τ).loc main_v89) = W13 m ρ c (Proc.devRef .tc main_v89)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v89 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c)⟩)

end Cert.KernelIdeal.RunValue

end
-- ==== Proof.LibDot.lean ====
/-
  A matrix product with one contracted axis, read at an entry as a sum over that axis's coordinate.

  A contraction's index set is a shape of rank one here; the sum over it is the sum over `Fin K` once each operand's index
  at contraction position `k` is named by the coordinate of `k` (`contr_sum`).  The hypotheses ask for each operand
  index as a function of that coordinate, which the dimension numbers of a literal product give by computation.
-/
import Idealize.ShloMosaic.PureOps.Ideal.Laws
import Idealize.ShloMosaic.Lib.ValueIdx

noncomputable section

namespace Cert.LibDot

open Idealize.ShloMosaic Idealize.ShloMosaic.ValueIdx
open scoped BigOperators

/-- The contraction sum of a product whose dimension numbers contract ONE axis of extent `K`, as a sum over `Fin K`:
    `L q` and `R q` are the operands' indices at a contraction position whose coordinate is `q`. -/
theorem contr_sum {sl sr so : Shape} (D : DotDims sl sr so) (K : ℕ) (hr : D.contr.rank = 1)
    (hs : D.contr.size ⟨0, by omega⟩ = K) (lhs : sl.Idx → EReal) (rhs : sr.Idx → EReal) (j : so.Idx)
    (L : Fin K → sl.Idx) (R : Fin K → sr.Idx)
    (hL : ∀ (k : D.contr.Idx) (q : Fin K), (k ⟨0, by omega⟩).val = q.val → D.lhsIdx j k = L q)
    (hR : ∀ (k : D.contr.Idx) (q : Fin K), (k ⟨0, by omega⟩).val = q.val → D.rhsIdx j k = R q) :
    ∑ k : D.contr.Idx, lhs (D.lhsIdx j k) * rhs (D.rhsIdx j k) = ∑ q : Fin K, lhs (L q) * rhs (R q) := by
  rw [← Equiv.sum_comp (contrEquiv1 D K hr hs).symm (fun k => lhs (D.lhsIdx j k) * rhs (D.rhsIdx j k))]
  refine Finset.sum_congr rfl fun q _ => ?_
  rw [hL _ q (contrEquiv1_symm_val D K hr hs q), hR _ q (contrEquiv1_symm_val D K hr hs q)]

end Cert.LibDot

end
-- ==== Proof.LibHostRows.lean ====
/-
  Rows of a matrix on the host, at the ideal values: the `broadcast_in_dim` steps a jnp program surrounds a row reduction
  with, and the host's own row reductions read at a row.

  A scalar broadcast to any shape reads the scalar everywhere (`scalar_apply`). A vector of length b viewed as a [1, b]
  row and the row repeated along the rows to [a, b] reads entry j at (i, j) (`row_apply`, `rowSpread_apply`): a bias
  added to every row. A vector of length a viewed as an [a, 1] column and the column repeated along the columns to [a, b]
  reads entry i at (i, j) (`column_apply`, `spread_apply`): a row statistic set against the matrix again.

  The host's one-operand reduce along the columns with a maximum body is, at row i, the fold of max from the initial
  value over the row's entries (`rowMaximum_apply`); its sum is the initial value plus the sum of the row's entries
  (`rowSum_apply`). Both with the row's entries written (i, k).
-/
import Idealize.ShloMosaic.PureOps.Ideal.Laws
import Idealize.ShloMosaic.PureOps.Reduce
import Idealize.ShloMosaic.Lib.ValueIdx
import Idealize.ShloMosaic.Lib.Pipeline.Value

noncomputable section

namespace Cert.LibHostRows

open Idealize.ShloMosaic Idealize.ShloMosaic.ValueIdx

variable {α : Type}

/-- A scalar broadcast to any shape reads the scalar at every index. -/
theorem scalar_apply {s : Shape} (v : (⟨0, ![]⟩ : Shape).Idx → α)
    (h : (⟨0, ![]⟩ : Shape).BroadcastsInDim s (![] : Fin 0 → Fin s.rank)) (j : s.Idx) :
    broadcastInDim s ![] h v j = v ix0 :=
  broadcastInDim_apply _ h v j ix0 fun c => c.elim0

/-- A vector of length `b` viewed as a [1, b] row reads entry `j` at (0, j). -/
theorem row_apply {b : ℕ} (v : (⟨1, ![b]⟩ : Shape).Idx → α)
    (h : (⟨1, ![b]⟩ : Shape).BroadcastsInDim ⟨2, ![1, b]⟩ (![1] : Fin 1 → Fin 2)) (u : Fin 1) (j : Fin b) (hb : b ≠ 1) :
    broadcastInDim ⟨2, ![1, b]⟩ ![1] h v (ix2 u j) = v (ix1 j) :=
  broadcastInDim_apply _ h v _ _ fun c => match c with
    | ⟨0, _⟩ => by
        show j.val = if b = 1 then 0 else j.val
        rw [if_neg hb]

/-- A [1, b] row repeated along the rows to [a, b] reads the row's entry `j` at (i, j). -/
theorem rowSpread_apply {a b : ℕ} (v : (⟨2, ![1, b]⟩ : Shape).Idx → α)
    (h : (⟨2, ![1, b]⟩ : Shape).BroadcastsInDim ⟨2, ![a, b]⟩ (![0, 1] : Fin 2 → Fin 2)) (i : Fin a) (j : Fin b) (hb : b ≠ 1) :
    broadcastInDim ⟨2, ![a, b]⟩ ![0, 1] h v (ix2 i j) = v (ix2 (0 : Fin 1) j) :=
  broadcastInDim_apply _ h v _ _ fun c => match c with
    | ⟨0, _⟩ => rfl
    | ⟨1, _⟩ => by
        show j.val = if b = 1 then 0 else j.val
        rw [if_neg hb]

/-- A vector of length `a` viewed as an [a, 1] column reads entry `i` at (i, 0). -/
theorem column_apply {a : ℕ} (v : (⟨1, ![a]⟩ : Shape).Idx → α)
    (h : (⟨1, ![a]⟩ : Shape).BroadcastsInDim ⟨2, ![a, 1]⟩ (![0] : Fin 1 → Fin 2)) (i : Fin a) (u : Fin 1) (ha : a ≠ 1) :
    broadcastInDim ⟨2, ![a, 1]⟩ ![0] h v (ix2 i u) = v (ix1 i) :=
  broadcastInDim_apply _ h v _ _ fun c => match c with
    | ⟨0, _⟩ => by
        show i.val = if a = 1 then 0 else i.val
        rw [if_neg ha]

/-- An [a, 1] column repeated along the columns to [a, b] reads the column's entry `i` at (i, j). -/
theorem spread_apply {a b : ℕ} (v : (⟨2, ![a, 1]⟩ : Shape).Idx → α)
    (h : (⟨2, ![a, 1]⟩ : Shape).BroadcastsInDim ⟨2, ![a, b]⟩ (![0, 1] : Fin 2 → Fin 2)) (i : Fin a) (j : Fin b) (ha : a ≠ 1) :
    broadcastInDim ⟨2, ![a, b]⟩ ![0, 1] h v (ix2 i j) = v (ix2 i (0 : Fin 1)) :=
  broadcastInDim_apply _ h v _ _ fun c => match c with
    | ⟨0, _⟩ => by
        show i.val = if a = 1 then 0 else i.val
        rw [if_neg ha]
    | ⟨1, _⟩ => rfl

/-- The source index over row `i` with `k` inserted on the column axis is (i, k). -/
theorem lift_row {a b : ℕ} (h : Shape.Reduces ⟨2, ![a, b]⟩ [1] ⟨1, ![a]⟩) (i : Fin a) (k : Fin b) :
    h.lift (ix1 i) k = ix2 i k :=
  funext fun c => Fin.ext (by match c with | ⟨0, _⟩ => rfl | ⟨1, _⟩ => rfl)

/-- The host's maximum along the columns, at row `i`: the fold of `max` from the initial value over the row's entries. -/
theorem rowMaximum_apply {a b : ℕ} {u : Shape} (y : FVec Ideal ⟨2, ![a, b]⟩ .f32) (init : u.Idx → Ideal .f32)
    (h' : Shape.ReducesTo ⟨2, ![a, b]⟩ [1] ⟨1, ![a]⟩) (h : Shape.Reduces ⟨2, ![a, b]⟩ [1] ⟨1, ![a]⟩) (hu : 0 < u.numel) (i : Fin a) :
    Host.reduce FloatOps.maximumf y init h' hu (ix1 i)
      = (Finset.univ : Finset (Fin b)).fold max (init (Shape.Idx.first hu)) (fun k => y (ix2 i k)) := by
  refine (Host.reduce_eq_fold_single FloatOps.maximumf y init h' h hu (ix1 i)).trans ?_
  exact congrArg (Finset.fold max (init (Shape.Idx.first hu)) · Finset.univ) (funext fun k => congrArg y (lift_row h i k))

/-- The host's sum along the columns, at row `i`: the initial value plus the sum of the row's entries. -/
theorem rowSum_apply {a b : ℕ} {u : Shape} (y : FVec Ideal ⟨2, ![a, b]⟩ .f32) (init : u.Idx → Ideal .f32)
    (h' : Shape.ReducesTo ⟨2, ![a, b]⟩ [1] ⟨1, ![a]⟩) (h : Shape.Reduces ⟨2, ![a, b]⟩ [1] ⟨1, ![a]⟩) (hu : 0 < u.numel) (i : Fin a) :
    Host.reduceAdd y init h' hu (ix1 i) = init (Shape.Idx.first hu) + ∑ k : Fin b, y (ix2 i k) := by
  show Ideal.hostReduceAdd h' y (init (Shape.Idx.first hu)) (ix1 i) = _
  rw [Ideal.hostReduceAdd_single h' h]
  exact congrArg (_ + ·) (Finset.sum_congr rfl fun k _ => congrArg y (lift_row h i k))

end Cert.LibHostRows

end
-- ==== Proof.RegionMatmul.lean ====
/-
  The dense products of the network, region by region: each launch leaves in its output array the product of the
  node-feature array and the weight matrix as the region finds them (the last one adds the bias row and applies tanh).

  The body of such a region loads a block of 5000 rows of the features and the whole weight matrix, multiplies them into a
  zero accumulator and stores the whole block.  Entry (p, q) of the block's product is the sum over k of the block's
  (p, k) times the weights' (k, q); row p of block t is row 5000·t + p of the array, so block t of the output is block t
  of the whole-array product, and the ten blocks cover the array.
-/
import proofs.«113640_j1889785611050_1_alg».proof.Proof.Gen.KernelIdeal.Frame
import proofs.«113640_j1889785611050_1_alg».proof.Proof.Gen.ReferenceIdeal
import proofs.«113640_j1889785611050_1_alg».proof.Proof.Gen.ReferenceIdeal.Read
import proofs.«113640_j1889785611050_1_alg».proof.Proof.Spec
import proofs.«113640_j1889785611050_1_alg».proof.Proof.LibDot
import proofs.«113640_j1889785611050_1_alg».proof.Proof.LibHostRows
import Idealize.ShloMosaic.Lib.Pipeline.Value
import Idealize.ShloMosaic.Lib.ValueIdx
import Idealize.ShloMosaic.Lib.ValueLayout
import Idealize.ShloMosaic.PureOps.Ideal.Laws

noncomputable section
namespace Cert.KernelIdeal.RegionMatmul
open Idealize.ShloMosaic Idealize.ShloMosaic.TcCoe Idealize.SL.Sem Cert.KernelIdeal Cert.KernelIdeal.Gen

section Steps
open Idealize.ShloMosaic.ValueIdx
open scoped BigOperators

/-! ## A block's product at an entry -/

section BlockProduct

/-- Where the product of a 5000-row block and the square weight matrix reads its operands: at output entry `j` and
    contraction position `k`, the block at (row of `j`, `k`) and the weights at (`k`, column of `j`). -/
theorem lhs_rows (j : S5000x128.Idx) (k : dot_S5000x128_S128x128_S5000x128_1_0_0_1_n_n.contr.Idx) :
    (dot_S5000x128_S128x128_S5000x128_1_0_0_1_n_n.lhsIdx j k 0).val = (j 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
theorem lhs_contr (j : S5000x128.Idx) (k : dot_S5000x128_S128x128_S5000x128_1_0_0_1_n_n.contr.Idx) :
    (dot_S5000x128_S128x128_S5000x128_1_0_0_1_n_n.lhsIdx j k 1).val = (k ⟨0, by decide⟩).val :=
  dot_S5000x128_S128x128_S5000x128_1_0_0_1_n_n.lhsIdx_val_of_single rfl j k
theorem rhs_contr (j : S5000x128.Idx) (k : dot_S5000x128_S128x128_S5000x128_1_0_0_1_n_n.contr.Idx) :
    (dot_S5000x128_S128x128_S5000x128_1_0_0_1_n_n.rhsIdx j k 0).val = (k ⟨0, by decide⟩).val :=
  dot_S5000x128_S128x128_S5000x128_1_0_0_1_n_n.rhsIdx_val_of_single rfl j k
theorem rhs_cols (j : S5000x128.Idx) (k : dot_S5000x128_S128x128_S5000x128_1_0_0_1_n_n.contr.Idx) :
    (dot_S5000x128_S128x128_S5000x128_1_0_0_1_n_n.rhsIdx j k 1).val = (j 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- A 5000-row block times the square weight matrix into a zero accumulator: entry (p, q) is the sum over k of the
    block's (p, k) times the weights' (k, q). -/
theorem blockProduct_apply (a : FVec Ideal S5000x128 .bf16) (w : FVec Ideal S128x128 .bf16) (p : Fin 5000) (q : Fin 128) :
    matmul dot_S5000x128_S128x128_S5000x128_1_0_0_1_n_n none a w (constant S5000x128 .f32 0x00000000#32) (ix2 p q)
      = ∑ k : Fin 128, a (ix2 p k) * w (ix2 k q) := by
  simp only [matmul]
  rw [Ideal.matmul_constant_zero_apply]
  refine Cert.LibDot.contr_sum dot_S5000x128_S128x128_S5000x128_1_0_0_1_n_n 128 rfl rfl a w (ix2 p q)
    (fun k => ix2 p k) (fun k => ix2 k q) ?_ ?_
  · intro k r hk
    exact funext fun d => Fin.ext (by
      match d with
      | ⟨0, _⟩ => exact lhs_rows _ _
      | ⟨1, _⟩ => exact (lhs_contr _ _).trans hk)
  · intro k r hk
    exact funext fun d => Fin.ext (by
      match d with
      | ⟨0, _⟩ => exact (rhs_contr _ _).trans hk
      | ⟨1, _⟩ => exact rhs_cols _ _)

end BlockProduct

/-! ## The whole-array product at an entry -/

/-- The product of the features and a square weight matrix, entry (p, q): the sum over k of the features' (p, k) times
    the weights' (k, q). -/
theorem mm_apply (h : Cert.Gcn.Arr Ideal ⟨S50000x128, .f32⟩) (w : Cert.Gcn.Arr Ideal ⟨S128x128, .f32⟩) (p : Fin 50000) (q : Fin 128) :
    Cert.Gcn.mm h w (ix2 p q) = ∑ k : Fin 128, h (ix2 p k) * w (ix2 k q) := by
  refine (Cert.ReferenceIdeal.Read.val_main_v27_apply h w (ix2 p q)).trans ?_
  refine Finset.sum_congr rfl fun k _ => ?_
  have el : Cert.ReferenceIdeal.Read.lidx_main_v27 (ix2 p q) k = ix2 p k :=
    funext fun a => Fin.ext (by match a with | ⟨0, _⟩ => rfl | ⟨1, _⟩ => rfl)
  have er : Cert.ReferenceIdeal.Read.ridx_main_v27 (ix2 p q) k = ix2 k q :=
    funext fun a => Fin.ext (by match a with | ⟨0, _⟩ => rfl | ⟨1, _⟩ => rfl)
  rw [el, er]

/-! ## The body's arithmetic on a block of rows -/

/-- The body of the first product region on a block whose row p is row `5000·n + p` of the features `X` and on the
    weights `W`: the entry it stores at `y` is the whole-array product's entry at `i`, `n` blocks of rows further down. -/
theorem pay0_rows (x0 : Vec Ideal S5000x128 .f32) (x1 : Vec Ideal S128x128 .f32)
    (X : Cert.Gcn.Arr Ideal ⟨S50000x128, .f32⟩) (W : Cert.Gcn.Arr Ideal ⟨S128x128, .f32⟩) (n : ℕ)
    (hx : ∀ (p : Fin 5000) (k : Fin 128) (hp : 5000 * n + p.val < 50000), x0 (ix2 p k) = X (ix2 ⟨5000 * n + p.val, hp⟩ k))
    (hw : ∀ (k q : Fin 128), x1 (ix2 k q) = W (ix2 k q))
    (y : S5000x128.Idx) (i : S50000x128.Idx) (h0 : (i 0).val = 5000 * n + (y 0).val) (h1 : (i 1).val = (y 1).val) :
    k0_pay1 x0 x1 y = Cert.Gcn.mm X W i := by
  obtain ⟨p, q, rfl⟩ : ∃ (p : Fin 5000) (q : Fin 128), y = ix2 p q := ⟨y 0, y 1, eq_ix2 y⟩
  obtain ⟨r, s, rfl⟩ : ∃ (r : Fin 50000) (s : Fin 128), i = ix2 r s := ⟨i 0, i 1, eq_ix2 i⟩
  have hp : 5000 * n + p.val < 50000 := h0 ▸ r.isLt
  obtain rfl : r = ⟨5000 * n + p.val, hp⟩ := Fin.ext h0
  obtain rfl : s = q := Fin.ext h1
  unfold k0_pay1
  rw [blockProduct_apply, mm_apply]
  refine Finset.sum_congr rfl fun k _ => ?_
  rw [truncf_apply, truncf_apply, hx p k hp, hw]

/-- The later product regions' body is the first one's behind a shape cast of the block to its own shape. -/
theorem pay2_eq (x0 : Vec Ideal S5000x128 .f32) (x1 : Vec Ideal S128x128 .f32) : k2_pay1 x0 x1 = k0_pay1 x0 x1 := by
  unfold k2_pay1 k0_pay1
  simp only [shapeCast_self]
theorem pay4_eq (x0 : Vec Ideal S5000x128 .f32) (x1 : Vec Ideal S128x128 .f32) : k4_pay1 x0 x1 = k0_pay1 x0 x1 := by
  unfold k4_pay1 k0_pay1
  simp only [shapeCast_self]

/-- So they store the same entries of the whole-array product. -/
theorem pay2_rows (x0 : Vec Ideal S5000x128 .f32) (x1 : Vec Ideal S128x128 .f32)
    (X : Cert.Gcn.Arr Ideal ⟨S50000x128, .f32⟩) (W : Cert.Gcn.Arr Ideal ⟨S128x128, .f32⟩) (n : ℕ)
    (hx : ∀ (p : Fin 5000) (k : Fin 128) (hp : 5000 * n + p.val < 50000), x0 (ix2 p k) = X (ix2 ⟨5000 * n + p.val, hp⟩ k))
    (hw : ∀ (k q : Fin 128), x1 (ix2 k q) = W (ix2 k q))
    (y : S5000x128.Idx) (i : S50000x128.Idx) (h0 : (i 0).val = 5000 * n + (y 0).val) (h1 : (i 1).val = (y 1).val) :
    k2_pay1 x0 x1 y = Cert.Gcn.mm X W i := by
  rw [pay2_eq]; exact pay0_rows x0 x1 X W n hx hw y i h0 h1
theorem pay4_rows (x0 : Vec Ideal S5000x128 .f32) (x1 : Vec Ideal S128x128 .f32)
    (X : Cert.Gcn.Arr Ideal ⟨S50000x128, .f32⟩) (W : Cert.Gcn.Arr Ideal ⟨S128x128, .f32⟩) (n : ℕ)
    (hx : ∀ (p : Fin 5000) (k : Fin 128) (hp : 5000 * n + p.val < 50000), x0 (ix2 p k) = X (ix2 ⟨5000 * n + p.val, hp⟩ k))
    (hw : ∀ (k q : Fin 128), x1 (ix2 k q) = W (ix2 k q))
    (y : S5000x128.Idx) (i : S50000x128.Idx) (h0 : (i 0).val = 5000 * n + (y 0).val) (h1 : (i 1).val = (y 1).val) :
    k4_pay1 x0 x1 y = Cert.Gcn.mm X W i := by
  rw [pay4_eq]; exact pay0_rows x0 x1 X W n hx hw y i h0 h1

/-- A store through the whole-block rectangle is at zero offsets. -/
theorem zeros : (![0, 0] : Fin 2 → Nat) = fun _ => 0 := funext fun a => by fin_cases a <;> rfl

variable (V : (c : Dev nD) → (b : Ref sig .tc) → Buf (Elt Ideal) ((c : Thread nD τ).loc b))

/-! ## Region 0: from the blocks to the array -/

/-- The block indices of region 0's windows at each of the ten points: block t of the features and of the output on the
    rows, the one block of the weights. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of the features' block at point t is row `5000·t + p` of the features. -/
theorem rows0 (c : Dev nD) (t : Fin cfg0.N) (p : Fin 5000) (k : Fin 128) (hp : 5000 * t.val + p.val < 50000) :
    (iblk0 V c 0 t : Vec Ideal S5000x128 .f32) (ix2 p k)
      = (V c main_arg0 : Cert.Gcn.Arr Ideal ⟨S50000x128, .f32⟩) (ix2 ⟨5000 * t.val + p.val, hp⟩ k) := by
  obtain ⟨e0, e1, -⟩ := idx0 t
  unfold iblk0
  rw [View.read_apply]
  show V c main_arg0 _ = V c main_arg0 _
  refine congrArg _ (funext fun a => Fin.ext ?_)
  match a with
  | ⟨0, _⟩ => show win0_0.index t (0 : Fin 2) * 5000 + 1 * p.val = 5000 * t.val + p.val; rw [e0]; omega
  | ⟨1, _⟩ => show win0_0.index t (1 : Fin 2) * 128 + 1 * k.val = k.val; rw [e1]; omega

/-- The weights' block at every point is the weight matrix. -/
theorem weights0 (c : Dev nD) (t : Fin cfg0.N) (k q : Fin 128) :
    (iblk0 V c 1 t : Vec Ideal S128x128 .f32) (ix2 k q) = (V c main_arg3 : Cert.Gcn.Arr Ideal ⟨S128x128, .f32⟩) (ix2 k q) := by
  obtain ⟨-, -, e2, e3, -⟩ := idx0 t
  unfold iblk0
  rw [View.read_apply]
  show V c main_arg3 _ = V c main_arg3 _
  refine congrArg _ (funext fun a => Fin.ext ?_)
  match a with
  | ⟨0, _⟩ => show win0_1.index t (0 : Fin 2) * 128 + 1 * k.val = k.val; rw [e2]; omega
  | ⟨1, _⟩ => show win0_1.index t (1 : Fin 2) * 128 + 1 * q.val = q.val; rw [e3]; omega

/-- What point t writes back is block t of the whole-array product. -/
theorem block0 (c : Dev nD) (t : Fin cfg0.N) :
    (dat0 V c).flushed 2 t
      = ((cfg0.win 2).blk t).view.read (Elt Ideal) (Cert.Gcn.mm (V c main_arg0) (V c main_arg3)) := by
  show (cfg0.win 2).cut (grid0.coords t) ((dat0 V c).after 2 t) = _
  rw [after0_2]
  unfold out0_2
  rw [View.canon_unit_zero zeros]
  simp only [View.ld_unit_zero (S := S5000x128) zeros, View.ld_unit_zero (S := S128x128) zeros]
  obtain ⟨-, -, -, -, e4, e5⟩ := idx0 t
  funext j
  rw [View.read_apply]
  refine pay0_rows (iblk0 V c 0 t) (iblk0 V c 1 t) (V c main_arg0) (V c main_arg3) t.val
    (fun p k hp => rows0 V c t p k hp) (fun k q => weights0 V c t k q) j _ ?_ ?_
  · show win0_2.index t (0 : Fin 2) * 5000 + 1 * (j 0).val = 5000 * t.val + (j 0).val
    rw [e4]; omega
  · show win0_2.index t (1 : Fin 2) * 128 + 1 * (j 1).val = (j 1).val
    rw [e5]; omega

/-- Row r of the array is in the block of point `r / 5000`: the ten blocks cover the array. -/
theorem cover0 (i : S50000x128.Idx) :
    ∃ t : Fin cfg0.N, (cfg0.win 2).flush t = true ∧ i ∈ ((cfg0.win 2).blk t).view.set := by
  have hN : cfg0.N = 10 := N_0
  have hi0 : (i 0).val < 50000 := (i 0).isLt
  have hi1 : (i 1).val < 128 := (i 1).isLt
  obtain ⟨t, ht⟩ : ∃ t : Fin cfg0.N, t.val = (i 0).val / 5000 := ⟨⟨(i 0).val / 5000, by rw [hN]; omega⟩, rfl⟩
  obtain ⟨-, -, -, -, e4, e5⟩ := idx0 t
  refine ⟨t, flush0_2 t, ?_⟩
  show i ∈ ((View.whole main_v28).slice (win0_2.rect t)).set
  rw [View.set_slice_whole, Rect.mem_set_unit]
  intro a
  match a with
  | ⟨0, _⟩ =>
    show win0_2.index t (0 : Fin 2) * 5000 ≤ (i 0).val ∧ (i 0).val < win0_2.index t (0 : Fin 2) * 5000 + 5000
    rw [e4, ht]; omega
  | ⟨1, _⟩ =>
    show win0_2.index t (1 : Fin 2) * 128 ≤ (i 1).val ∧ (i 1).val < win0_2.index t (1 : Fin 2) * 128 + 128
    rw [e5]; omega

/-- The output array after the launch is the whole-array product. -/
theorem product0 (c : Dev nD) : (dat0 V c).arrAt 2 cfg0.N = Cert.Gcn.mm (V c main_arg0) (V c main_arg3) :=
  (dat0 V c).arrAt_eq_of_cover 2 (Cert.Gcn.mm (V c main_arg0) (V c main_arg3)) (fun t _ => block0 V c t) cover0

/-! ## Region 2: from the blocks to the array -/

/-- The block indices of region 2's windows at each of the ten points: block t of the features and of the output on the
    rows, the one block of the weights. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Row p of the features' block at point t is row `5000·t + p` of the features. -/
theorem rows2 (c : Dev nD) (t : Fin cfg2.N) (p : Fin 5000) (k : Fin 128) (hp : 5000 * t.val + p.val < 50000) :
    (iblk2 V c 0 t : Vec Ideal S5000x128 .f32) (ix2 p k)
      = (V c main_v43 : Cert.Gcn.Arr Ideal ⟨S50000x128, .f32⟩) (ix2 ⟨5000 * t.val + p.val, hp⟩ k) := by
  obtain ⟨e0, e1, -⟩ := idx2 t
  unfold iblk2
  rw [View.read_apply]
  show V c main_v43 _ = V c main_v43 _
  refine congrArg _ (funext fun a => Fin.ext ?_)
  match a with
  | ⟨0, _⟩ => show win2_0.index t (0 : Fin 2) * 5000 + 1 * p.val = 5000 * t.val + p.val; rw [e0]; omega
  | ⟨1, _⟩ => show win2_0.index t (1 : Fin 2) * 128 + 1 * k.val = k.val; rw [e1]; omega

/-- The weights' block at every point is the weight matrix. -/
theorem weights2 (c : Dev nD) (t : Fin cfg2.N) (k q : Fin 128) :
    (iblk2 V c 1 t : Vec Ideal S128x128 .f32) (ix2 k q) = (V c main_arg5 : Cert.Gcn.Arr Ideal ⟨S128x128, .f32⟩) (ix2 k q) := by
  obtain ⟨-, -, e2, e3, -⟩ := idx2 t
  unfold iblk2
  rw [View.read_apply]
  show V c main_arg5 _ = V c main_arg5 _
  refine congrArg _ (funext fun a => Fin.ext ?_)
  match a with
  | ⟨0, _⟩ => show win2_1.index t (0 : Fin 2) * 128 + 1 * k.val = k.val; rw [e2]; omega
  | ⟨1, _⟩ => show win2_1.index t (1 : Fin 2) * 128 + 1 * q.val = q.val; rw [e3]; omega

/-- What point t writes back is block t of the whole-array product. -/
theorem block2 (c : Dev nD) (t : Fin cfg2.N) :
    (dat2 V c).flushed 2 t
      = ((cfg2.win 2).blk t).view.read (Elt Ideal) (Cert.Gcn.mm (V c main_v43) (V c main_arg5)) := by
  show (cfg2.win 2).cut (grid2.coords t) ((dat2 V c).after 2 t) = _
  rw [after2_2]
  unfold out2_2
  rw [View.canon_unit_zero zeros]
  simp only [View.ld_unit_zero (S := S5000x128) zeros, View.ld_unit_zero (S := S128x128) zeros]
  obtain ⟨-, -, -, -, e4, e5⟩ := idx2 t
  funext j
  rw [View.read_apply]
  refine pay2_rows (iblk2 V c 0 t) (iblk2 V c 1 t) (V c main_v43) (V c main_arg5) t.val
    (fun p k hp => rows2 V c t p k hp) (fun k q => weights2 V c t k q) j _ ?_ ?_
  · show win2_2.index t (0 : Fin 2) * 5000 + 1 * (j 0).val = 5000 * t.val + (j 0).val
    rw [e4]; omega
  · show win2_2.index t (1 : Fin 2) * 128 + 1 * (j 1).val = (j 1).val
    rw [e5]; omega

/-- Row r of the array is in the block of point `r / 5000`: the ten blocks cover the array. -/
theorem cover2 (i : S50000x128.Idx) :
    ∃ t : Fin cfg2.N, (cfg2.win 2).flush t = true ∧ i ∈ ((cfg2.win 2).blk t).view.set := by
  have hN : cfg2.N = 10 := N_2
  have hi0 : (i 0).val < 50000 := (i 0).isLt
  have hi1 : (i 1).val < 128 := (i 1).isLt
  obtain ⟨t, ht⟩ : ∃ t : Fin cfg2.N, t.val = (i 0).val / 5000 := ⟨⟨(i 0).val / 5000, by rw [hN]; omega⟩, rfl⟩
  obtain ⟨-, -, -, -, e4, e5⟩ := idx2 t
  refine ⟨t, flush2_2 t, ?_⟩
  show i ∈ ((View.whole main_v44).slice (win2_2.rect t)).set
  rw [View.set_slice_whole, Rect.mem_set_unit]
  intro a
  match a with
  | ⟨0, _⟩ =>
    show win2_2.index t (0 : Fin 2) * 5000 ≤ (i 0).val ∧ (i 0).val < win2_2.index t (0 : Fin 2) * 5000 + 5000
    rw [e4, ht]; omega
  | ⟨1, _⟩ =>
    show win2_2.index t (1 : Fin 2) * 128 ≤ (i 1).val ∧ (i 1).val < win2_2.index t (1 : Fin 2) * 128 + 128
    rw [e5]; omega

/-- The output array after the launch is the whole-array product. -/
theorem product2 (c : Dev nD) : (dat2 V c).arrAt 2 cfg2.N = Cert.Gcn.mm (V c main_v43) (V c main_arg5) :=
  (dat2 V c).arrAt_eq_of_cover 2 (Cert.Gcn.mm (V c main_v43) (V c main_arg5)) (fun t _ => block2 V c t) cover2

/-! ## Region 4: from the blocks to the array -/

/-- The block indices of region 4's windows at each of the ten points: block t of the features and of the output on the
    rows, the one block of the weights. -/
theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- Row p of the features' block at point t is row `5000·t + p` of the features. -/
theorem rows4 (c : Dev nD) (t : Fin cfg4.N) (p : Fin 5000) (k : Fin 128) (hp : 5000 * t.val + p.val < 50000) :
    (iblk4 V c 0 t : Vec Ideal S5000x128 .f32) (ix2 p k)
      = (V c main_v59 : Cert.Gcn.Arr Ideal ⟨S50000x128, .f32⟩) (ix2 ⟨5000 * t.val + p.val, hp⟩ k) := by
  obtain ⟨e0, e1, -⟩ := idx4 t
  unfold iblk4
  rw [View.read_apply]
  show V c main_v59 _ = V c main_v59 _
  refine congrArg _ (funext fun a => Fin.ext ?_)
  match a with
  | ⟨0, _⟩ => show win4_0.index t (0 : Fin 2) * 5000 + 1 * p.val = 5000 * t.val + p.val; rw [e0]; omega
  | ⟨1, _⟩ => show win4_0.index t (1 : Fin 2) * 128 + 1 * k.val = k.val; rw [e1]; omega

/-- The weights' block at every point is the weight matrix. -/
theorem weights4 (c : Dev nD) (t : Fin cfg4.N) (k q : Fin 128) :
    (iblk4 V c 1 t : Vec Ideal S128x128 .f32) (ix2 k q) = (V c main_arg7 : Cert.Gcn.Arr Ideal ⟨S128x128, .f32⟩) (ix2 k q) := by
  obtain ⟨-, -, e2, e3, -⟩ := idx4 t
  unfold iblk4
  rw [View.read_apply]
  show V c main_arg7 _ = V c main_arg7 _
  refine congrArg _ (funext fun a => Fin.ext ?_)
  match a with
  | ⟨0, _⟩ => show win4_1.index t (0 : Fin 2) * 128 + 1 * k.val = k.val; rw [e2]; omega
  | ⟨1, _⟩ => show win4_1.index t (1 : Fin 2) * 128 + 1 * q.val = q.val; rw [e3]; omega

/-- What point t writes back is block t of the whole-array product. -/
theorem block4 (c : Dev nD) (t : Fin cfg4.N) :
    (dat4 V c).flushed 2 t
      = ((cfg4.win 2).blk t).view.read (Elt Ideal) (Cert.Gcn.mm (V c main_v59) (V c main_arg7)) := by
  show (cfg4.win 2).cut (grid4.coords t) ((dat4 V c).after 2 t) = _
  rw [after4_2]
  unfold out4_2
  rw [View.canon_unit_zero zeros]
  simp only [View.ld_unit_zero (S := S5000x128) zeros, View.ld_unit_zero (S := S128x128) zeros]
  obtain ⟨-, -, -, -, e4, e5⟩ := idx4 t
  funext j
  rw [View.read_apply]
  refine pay4_rows (iblk4 V c 0 t) (iblk4 V c 1 t) (V c main_v59) (V c main_arg7) t.val
    (fun p k hp => rows4 V c t p k hp) (fun k q => weights4 V c t k q) j _ ?_ ?_
  · show win4_2.index t (0 : Fin 2) * 5000 + 1 * (j 0).val = 5000 * t.val + (j 0).val
    rw [e4]; omega
  · show win4_2.index t (1 : Fin 2) * 128 + 1 * (j 1).val = (j 1).val
    rw [e5]; omega

/-- Row r of the array is in the block of point `r / 5000`: the ten blocks cover the array. -/
theorem cover4 (i : S50000x128.Idx) :
    ∃ t : Fin cfg4.N, (cfg4.win 2).flush t = true ∧ i ∈ ((cfg4.win 2).blk t).view.set := by
  have hN : cfg4.N = 10 := N_4
  have hi0 : (i 0).val < 50000 := (i 0).isLt
  have hi1 : (i 1).val < 128 := (i 1).isLt
  obtain ⟨t, ht⟩ : ∃ t : Fin cfg4.N, t.val = (i 0).val / 5000 := ⟨⟨(i 0).val / 5000, by rw [hN]; omega⟩, rfl⟩
  obtain ⟨-, -, -, -, e4, e5⟩ := idx4 t
  refine ⟨t, flush4_2 t, ?_⟩
  show i ∈ ((View.whole main_v60).slice (win4_2.rect t)).set
  rw [View.set_slice_whole, Rect.mem_set_unit]
  intro a
  match a with
  | ⟨0, _⟩ =>
    show win4_2.index t (0 : Fin 2) * 5000 ≤ (i 0).val ∧ (i 0).val < win4_2.index t (0 : Fin 2) * 5000 + 5000
    rw [e4, ht]; omega
  | ⟨1, _⟩ =>
    show win4_2.index t (1 : Fin 2) * 128 ≤ (i 1).val ∧ (i 1).val < win4_2.index t (1 : Fin 2) * 128 + 128
    rw [e5]; omega

/-- The output array after the launch is the whole-array product. -/
theorem product4 (c : Dev nD) : (dat4 V c).arrAt 2 cfg4.N = Cert.Gcn.mm (V c main_v59) (V c main_arg7) :=
  (dat4 V c).arrAt_eq_of_cover 2 (Cert.Gcn.mm (V c main_v59) (V c main_arg7)) (fun t _ => block4 V c t) cover4

/-! ## The last region: the product with the narrow weight matrix, the bias row and tanh -/

/-- Where the product of a 5000-row block and the [128, 6] weight matrix reads its operands: at output entry `j` and
    contraction position `k`, the block at (row of `j`, `k`) and the weights at (`k`, column of `j`). -/
theorem lhs6_rows (j : S5000x6.Idx) (k : dot_S5000x128_S128x6_S5000x6_1_0_0_1_n_n.contr.Idx) :
    (dot_S5000x128_S128x6_S5000x6_1_0_0_1_n_n.lhsIdx j k 0).val = (j 0).val := by
  unfold DotDims.lhsIdx
  rw [dif_neg (show ¬(0 : Fin S5000x128.rank) ∈ dot_S5000x128_S128x6_S5000x6_1_0_0_1_n_n.lhsBatch by decide),
    dif_pos (show (0 : Fin S5000x128.rank) ∈ dot_S5000x128_S128x6_S5000x6_1_0_0_1_n_n.lhsNonContracting by decide)]
  rfl
theorem lhs6_contr (j : S5000x6.Idx) (k : dot_S5000x128_S128x6_S5000x6_1_0_0_1_n_n.contr.Idx) :
    (dot_S5000x128_S128x6_S5000x6_1_0_0_1_n_n.lhsIdx j k 1).val = (k ⟨0, by decide⟩).val :=
  dot_S5000x128_S128x6_S5000x6_1_0_0_1_n_n.lhsIdx_val_of_single rfl j k
theorem rhs6_contr (j : S5000x6.Idx) (k : dot_S5000x128_S128x6_S5000x6_1_0_0_1_n_n.contr.Idx) :
    (dot_S5000x128_S128x6_S5000x6_1_0_0_1_n_n.rhsIdx j k 0).val = (k ⟨0, by decide⟩).val :=
  dot_S5000x128_S128x6_S5000x6_1_0_0_1_n_n.rhsIdx_val_of_single rfl j k
theorem rhs6_cols (j : S5000x6.Idx) (k : dot_S5000x128_S128x6_S5000x6_1_0_0_1_n_n.contr.Idx) :
    (dot_S5000x128_S128x6_S5000x6_1_0_0_1_n_n.rhsIdx j k 1).val = (j 1).val := by
  unfold DotDims.rhsIdx
  rw [dif_neg (show ¬(1 : Fin S128x6.rank) ∈ dot_S5000x128_S128x6_S5000x6_1_0_0_1_n_n.rhsBatch by decide),
    dif_pos (show (1 : Fin S128x6.rank) ∈ dot_S5000x128_S128x6_S5000x6_1_0_0_1_n_n.rhsNonContracting by decide)]
  rfl

/-- A 5000-row block times the [128, 6] weight matrix into a zero accumulator: entry (p, q) is the sum over k of the
    block's (p, k) times the weights' (k, q). -/
theorem headBlockProduct_apply (a : FVec Ideal S5000x128 .bf16) (w : FVec Ideal S128x6 .bf16) (p : Fin 5000) (q : Fin 6) :
    matmul dot_S5000x128_S128x6_S5000x6_1_0_0_1_n_n none a w (constant S5000x6 .f32 0x00000000#32) (ix2 p q)
      = ∑ k : Fin 128, a (ix2 p k) * w (ix2 k q) := by
  simp only [matmul]
  rw [Ideal.matmul_constant_zero_apply]
  refine Cert.LibDot.contr_sum dot_S5000x128_S128x6_S5000x6_1_0_0_1_n_n 128 rfl rfl a w (ix2 p q)
    (fun k => ix2 p k) (fun k => ix2 k q) ?_ ?_
  · intro k r hk
    exact funext fun d => Fin.ext (by
      match d with
      | ⟨0, _⟩ => exact lhs6_rows _ _
      | ⟨1, _⟩ => exact (lhs6_contr _ _).trans hk)
  · intro k r hk
    exact funext fun d => Fin.ext (by
      match d with
      | ⟨0, _⟩ => exact (rhs6_contr _ _).trans hk
      | ⟨1, _⟩ => exact rhs6_cols _ _)

/-- The whole-array product with the [128, 6] weight matrix, entry (p, q): the same sum over k. -/
theorem headProduct_apply (h : FVec Ideal Cert.ReferenceIdeal.S50000x128 .f32) (w : FVec Ideal Cert.ReferenceIdeal.S128x6 .f32)
    (p : Fin 50000) (q : Fin 6) :
    Host.dotGeneral (F := Ideal) Cert.ReferenceIdeal.dot_S50000x128_S128x6_S50000x6_1_0_0_1_n_n none h w (ix2 p q)
      = ∑ k : Fin 128, h (ix2 p k) * w (ix2 k q) := by
  simp only [Host.dotGeneral]
  rw [Ideal.dotGeneral_apply]
  refine Cert.LibDot.contr_sum Cert.ReferenceIdeal.dot_S50000x128_S128x6_S50000x6_1_0_0_1_n_n 128 rfl rfl h w (ix2 p q)
    (fun k => ix2 p k) (fun k => ix2 k q) ?_ ?_
  · intro k r hk
    exact funext fun d => Fin.ext (by
      match d with
      | ⟨0, _⟩ => exact Cert.ReferenceIdeal.Read.lhs_main_v93_0 _ _
      | ⟨1, _⟩ => exact (Cert.ReferenceIdeal.Read.lhs_main_v93_1 _ _).trans hk)
  · intro k r hk
    exact funext fun d => Fin.ext (by
      match d with
      | ⟨0, _⟩ => exact (Cert.ReferenceIdeal.Read.rhs_main_v93_0 _ _).trans hk
      | ⟨1, _⟩ => exact Cert.ReferenceIdeal.Read.rhs_main_v93_1 _ _)

/-- The last linear map at entry (r, s): tanh of the product's entry plus the bias' entry s. -/
theorem head_apply (h : Cert.Gcn.Arr Ideal ⟨S50000x128, .f32⟩) (w : Cert.Gcn.Arr Ideal ⟨S128x6, .f32⟩)
    (b : Cert.Gcn.Arr Ideal ⟨S6, .f32⟩) (r : Fin 50000) (s : Fin 6) :
    Cert.Gcn.head h w b (ix2 r s) = Ideal.tanh ((∑ k : Fin 128, h (ix2 r k) * w (ix2 k s)) + b (ix1 s)) := by
  have hT : ∀ (x : FVec Ideal Cert.ReferenceIdeal.S50000x6 .f32) (j : Cert.ReferenceIdeal.S50000x6.Idx),
      Host.tanh x j = Ideal.tanh (x j) := fun _ _ => rfl
  unfold Cert.Gcn.head
  rw [hT, addf_apply, headProduct_apply, Cert.LibHostRows.rowSpread_apply _ _ r s (by decide),
    Cert.LibHostRows.row_apply _ _ 0 s (by decide)]

/-- The body of the last region on a block whose row p is row `5000·n + p` of the features `X`, on the weights `W` and on
    the bias `b` as a one-row array: the entry it stores at `y` is the last linear map's entry at `i`, `n` blocks of rows
    further down. -/
theorem pay6_rows (x0 : Vec Ideal S5000x128 .f32) (x1 : Vec Ideal S128x6 .f32) (x2 : Vec Ideal S1x6 .f32)
    (X : Cert.Gcn.Arr Ideal ⟨S50000x128, .f32⟩) (W : Cert.Gcn.Arr Ideal ⟨S128x6, .f32⟩) (b : Cert.Gcn.Arr Ideal ⟨S6, .f32⟩) (n : ℕ)
    (hx : ∀ (p : Fin 5000) (k : Fin 128) (hp : 5000 * n + p.val < 50000), x0 (ix2 p k) = X (ix2 ⟨5000 * n + p.val, hp⟩ k))
    (hw : ∀ (k : Fin 128) (q : Fin 6), x1 (ix2 k q) = W (ix2 k q))
    (hb : ∀ q : Fin 6, x2 (ix2 (0 : Fin 1) q) = b (ix1 q))
    (y : S5000x6.Idx) (i : S50000x6.Idx) (h0 : (i 0).val = 5000 * n + (y 0).val) (h1 : (i 1).val = (y 1).val) :
    k6_pay1 x0 x1 x2 y = Cert.Gcn.head X W b i := by
  obtain ⟨p, q, rfl⟩ : ∃ (p : Fin 5000) (q : Fin 6), y = ix2 p q := ⟨y 0, y 1, eq_ix2 y⟩
  obtain ⟨r, s, rfl⟩ : ∃ (r : Fin 50000) (s : Fin 6), i = ix2 r s := ⟨i 0, i 1, eq_ix2 i⟩
  have hp : 5000 * n + p.val < 50000 := h0 ▸ r.isLt
  obtain rfl : r = ⟨5000 * n + p.val, hp⟩ := Fin.ext h0
  obtain rfl : s = q := Fin.ext h1
  have hT : ∀ (x : FVec Ideal S5000x6 .f32) (j : S5000x6.Idx), tanh x j = Ideal.tanh (x j) := fun _ _ => rfl
  unfold k6_pay1
  simp only [shapeCast_self]
  rw [hT, addf_apply, headBlockProduct_apply, broadcastTo_1b_ab_apply, head_apply, hb]
  refine congrArg Ideal.tanh (congrArg (· + b (ix1 s)) (Finset.sum_congr rfl fun k _ => ?_))
  rw [truncf_apply, truncf_apply, hx p k hp, hw]

/-! ## Region 6: from the blocks to the array -/

/-- The block indices of region 6's windows at each of the ten points: block t of the features and of the output on the
    rows, the one block of the weights and of the bias row. -/
theorem idx6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- Row p of the features' block at point t is row `5000·t + p` of the features. -/
theorem rows6 (c : Dev nD) (t : Fin cfg6.N) (p : Fin 5000) (k : Fin 128) (hp : 5000 * t.val + p.val < 50000) :
    (iblk6 V c 0 t : Vec Ideal S5000x128 .f32) (ix2 p k)
      = (V c main_v75 : Cert.Gcn.Arr Ideal ⟨S50000x128, .f32⟩) (ix2 ⟨5000 * t.val + p.val, hp⟩ k) := by
  obtain ⟨e0, e1, -⟩ := idx6 t
  unfold iblk6
  rw [View.read_apply]
  show V c main_v75 _ = V c main_v75 _
  refine congrArg _ (funext fun a => Fin.ext ?_)
  match a with
  | ⟨0, _⟩ => show win6_0.index t (0 : Fin 2) * 5000 + 1 * p.val = 5000 * t.val + p.val; rw [e0]; omega
  | ⟨1, _⟩ => show win6_0.index t (1 : Fin 2) * 128 + 1 * k.val = k.val; rw [e1]; omega

/-- The weights' block at every point is the weight matrix. -/
theorem weights6 (c : Dev nD) (t : Fin cfg6.N) (k : Fin 128) (q : Fin 6) :
    (iblk6 V c 1 t : Vec Ideal S128x6 .f32) (ix2 k q) = (V c main_arg9 : Cert.Gcn.Arr Ideal ⟨S128x6, .f32⟩) (ix2 k q) := by
  obtain ⟨-, -, e2, e3, -⟩ := idx6 t
  unfold iblk6
  rw [View.read_apply]
  show V c main_arg9 _ = V c main_arg9 _
  refine congrArg _ (funext fun a => Fin.ext ?_)
  match a with
  | ⟨0, _⟩ => show win6_1.index t (0 : Fin 2) * 128 + 1 * k.val = k.val; rw [e2]; omega
  | ⟨1, _⟩ => show win6_1.index t (1 : Fin 2) * 6 + 1 * q.val = q.val; rw [e3]; omega

/-- The bias row's block at every point is the one-row array, whose entry (0, q) is the bias' entry q. -/
theorem bias6 (c : Dev nD) (bl : (⟨S6, .f32⟩ : BufTy).Contents (Elt Ideal))
    (hb : V c main_v76 = shapeCast _ bl shapeCasts_S6_S1x6) (t : Fin cfg6.N) (q : Fin 6) :
    (iblk6 V c 2 t : Vec Ideal S1x6 .f32) (ix2 (0 : Fin 1) q) = bl (ix1 q) := by
  obtain ⟨-, -, -, -, e4, e5, -⟩ := idx6 t
  unfold iblk6
  rw [View.read_apply]
  refine Eq.trans (b := (V c main_v76 : Cert.Gcn.Arr Ideal ⟨S1x6, .f32⟩) (ix2 (0 : Fin 1) q)) ?_ ?_
  · show V c main_v76 _ = V c main_v76 _
    refine congrArg _ (funext fun a => Fin.ext ?_)
    match a with
    | ⟨0, _⟩ => show win6_2.index t (0 : Fin 2) * 1 + 1 * 0 = 0; rw [e4]
    | ⟨1, _⟩ => show win6_2.index t (1 : Fin 2) * 6 + 1 * q.val = q.val; rw [e5]; omega
  · rw [hb]; exact shapeCast_a_1a_apply bl shapeCasts_S6_S1x6 0 q

/-- What point t writes back is block t of the last linear map's array. -/
theorem block6 (c : Dev nD) (bl : (⟨S6, .f32⟩ : BufTy).Contents (Elt Ideal))
    (hb : V c main_v76 = shapeCast _ bl shapeCasts_S6_S1x6) (t : Fin cfg6.N) :
    (dat6 V c).flushed 3 t
      = ((cfg6.win 3).blk t).view.read (Elt Ideal) (Cert.Gcn.head (V c main_v75) (V c main_arg9) bl) := by
  show (cfg6.win 3).cut (grid6.coords t) ((dat6 V c).after 3 t) = _
  rw [after6_3]
  unfold out6_3
  rw [View.canon_unit_zero zeros]
  simp only [View.ld_unit_zero (S := S5000x128) zeros, View.ld_unit_zero (S := S128x6) zeros, View.ld_unit_zero (S := S1x6) zeros]
  obtain ⟨-, -, -, -, -, -, e6, e7⟩ := idx6 t
  funext j
  rw [View.read_apply]
  refine pay6_rows (iblk6 V c 0 t) (iblk6 V c 1 t) (iblk6 V c 2 t) (V c main_v75) (V c main_arg9) bl t.val
    (fun p k hp => rows6 V c t p k hp) (fun k q => weights6 V c t k q) (fun q => bias6 V c bl hb t q) j _ ?_ ?_
  · show win6_3.index t (0 : Fin 2) * 5000 + 1 * (j 0).val = 5000 * t.val + (j 0).val
    rw [e6]; omega
  · show win6_3.index t (1 : Fin 2) * 6 + 1 * (j 1).val = (j 1).val
    rw [e7]; omega

/-- Row r of the array is in the block of point `r / 5000`: the ten blocks cover the array. -/
theorem cover6 (i : S50000x6.Idx) :
    ∃ t : Fin cfg6.N, (cfg6.win 3).flush t = true ∧ i ∈ ((cfg6.win 3).blk t).view.set := by
  have hN : cfg6.N = 10 := N_6
  have hi0 : (i 0).val < 50000 := (i 0).isLt
  have hi1 : (i 1).val < 6 := (i 1).isLt
  obtain ⟨t, ht⟩ : ∃ t : Fin cfg6.N, t.val = (i 0).val / 5000 := ⟨⟨(i 0).val / 5000, by rw [hN]; omega⟩, rfl⟩
  obtain ⟨-, -, -, -, -, -, e6, e7⟩ := idx6 t
  refine ⟨t, flush6_3 t, ?_⟩
  show i ∈ ((View.whole main_v77).slice (win6_3.rect t)).set
  rw [View.set_slice_whole, Rect.mem_set_unit]
  intro a
  match a with
  | ⟨0, _⟩ =>
    show win6_3.index t (0 : Fin 2) * 5000 ≤ (i 0).val ∧ (i 0).val < win6_3.index t (0 : Fin 2) * 5000 + 5000
    rw [e6, ht]; omega
  | ⟨1, _⟩ =>
    show win6_3.index t (1 : Fin 2) * 6 ≤ (i 1).val ∧ (i 1).val < win6_3.index t (1 : Fin 2) * 6 + 6
    rw [e7]; omega

/-- The output array after the launch is the last linear map's array. -/
theorem linear6 (c : Dev nD) (bl : (⟨S6, .f32⟩ : BufTy).Contents (Elt Ideal))
    (hb : V c main_v76 = shapeCast _ bl shapeCasts_S6_S1x6) :
    (dat6 V c).arrAt 3 cfg6.N = Cert.Gcn.head (V c main_v75) (V c main_arg9) bl :=
  (dat6 V c).arrAt_eq_of_cover 3 (Cert.Gcn.head (V c main_v75) (V c main_arg9) bl) (fun t _ => block6 V c bl hb t) cover6

end Steps

variable (V : (c : Dev nD) → (b : Ref sig .tc) → Buf (Elt Ideal) ((c : Thread nD τ).loc b))

theorem mm0 (c : Dev nD) : (dat0 (F := Ideal) V c).arrAt 2 cfg0.N = Cert.Gcn.mm (V c main_arg0) (V c main_arg3) := product0 V c
theorem mm2 (c : Dev nD) : (dat2 (F := Ideal) V c).arrAt 2 cfg2.N = Cert.Gcn.mm (V c main_v43) (V c main_arg5) := product2 V c
theorem mm4 (c : Dev nD) : (dat4 (F := Ideal) V c).arrAt 2 cfg4.N = Cert.Gcn.mm (V c main_v59) (V c main_arg7) := product4 V c

theorem head6 (c : Dev nD) (bl : (⟨S6, .f32⟩ : BufTy).Contents (Elt Ideal))
    (hb : V c main_v76 = shapeCast _ bl shapeCasts_S6_S1x6) :
    (dat6 (F := Ideal) V c).arrAt 3 cfg6.N = Cert.Gcn.head (V c main_v75) (V c main_arg9) bl := linear6 V c bl hb

end Cert.KernelIdeal.RegionMatmul
end
-- ==== Proof.LibRows.lean ====
/-
  Rows of a matrix at the ideal values: the two "keep the axis" layout steps a row reduction is followed by, and
  the row reductions themselves read at a row.

  A reduction along the columns of an [a, b] matrix leaves a vector of length a. To use it against the matrix again a
  program views it as an [a, 1] column and broadcasts the column along the rows to [a, b]. Read at (i, j) the result is
  entry i of the vector, whatever j is (`column_apply`, `spread_apply`).

  The reductions: the maximum of row i folded from the accumulator's value over the row's entries
  (`rowMaximum_apply`), and the sum of row i (`rowSum_apply`), both with the row's entries written (i, k).
-/
import Idealize.ShloMosaic.PureOps.Ideal.Laws
import Idealize.ShloMosaic.Lib.ValueIdx
import Idealize.ShloMosaic.Lib.Pipeline.Value

noncomputable section

namespace Cert.LibRows

open Idealize.ShloMosaic Idealize.ShloMosaic.ValueIdx

variable {α : Type}

/-- A vector of length `a` viewed as an [a, 1] column reads entry `i` at (i, 0). -/
theorem column_apply {a : ℕ} (v : (⟨1, ![a]⟩ : Shape).Idx → α) (h : (⟨1, ![a]⟩ : Shape).ShapeCasts ⟨2, ![a, 1]⟩)
    (i : Fin a) (u : Fin 1) : shapeCast ⟨2, ![a, 1]⟩ v h (ix2 i u) = v (ix1 i) :=
  shapeCast_apply v h _ _ (by
    have hu : u.val = 0 := by omega
    rw [Shape.rowMajor_val_one, Shape.rowMajor_val_two]
    show i.val = i.val * 1 + u.val
    rw [hu, Nat.mul_one, Nat.add_zero])

/-- An [a, 1] column broadcast along the rows to [a, b] reads the column's entry `i` at (i, j). -/
theorem spread_apply {a b : ℕ} (v : (⟨2, ![a, 1]⟩ : Shape).Idx → α) (h : (⟨2, ![a, 1]⟩ : Shape).Broadcasts ⟨2, ![a, b]⟩)
    (i : Fin a) (j : Fin b) (hb : a ≠ 1) : broadcastTo ⟨2, ![a, b]⟩ v h (ix2 i j) = v (ix2 i (0 : Fin 1)) :=
  broadcastTo_apply v h _ _ fun c => match c with
    | ⟨0, _⟩ => by
        show i.val = if a = 1 then 0 else i.val
        rw [if_neg hb]
    | ⟨1, _⟩ => rfl

/-- The source index over row `i` with `k` inserted on the column axis is (i, k). -/
theorem lift_row {a b : ℕ} (h : Shape.Reduces ⟨2, ![a, b]⟩ [1] ⟨1, ![a]⟩) (i : Fin a) (k : Fin b) :
    h.lift (ix1 i) k = ix2 i k :=
  funext fun c => Fin.ext (by match c with | ⟨0, _⟩ => rfl | ⟨1, _⟩ => rfl)

/-- The maximum along the columns, at row `i`: the fold of `max` from the accumulator's value over the row's entries. -/
theorem rowMaximum_apply {a b : ℕ} (src : FVec Ideal ⟨2, ![a, b]⟩ .f32) (acc : BitVec 32)
    (h : Shape.Reduces ⟨2, ![a, b]⟩ [1] ⟨1, ![a]⟩) (hφ : FKind.Formats .f32) (hacc : acc = FKind.maximumf.neutral .f32 hφ)
    (i : Fin a) :
    multiReduction .maximumf [1] ⟨1, ![a]⟩ src acc h hφ hacc (ix1 i)
      = (Finset.univ : Finset (Fin b)).fold max (Ideal.ofBits .f32 acc) (fun k => src (ix2 i k)) := by
  refine (Ideal.multiReduction_maximumf_single src acc h hφ hacc (ix1 i)).trans ?_
  exact congrArg (Finset.fold max (Ideal.ofBits .f32 acc) · Finset.univ) (funext fun k => congrArg src (lift_row h i k))

/-- The sum along the columns, at row `i`: the sum of the row's entries. -/
theorem rowSum_apply {a b : ℕ} (src : FVec Ideal ⟨2, ![a, b]⟩ .f32) (acc : BitVec 32)
    (h : Shape.Reduces ⟨2, ![a, b]⟩ [1] ⟨1, ![a]⟩) (hφ : FKind.Formats .f32) (hacc : acc = FKind.add.neutral .f32 hφ)
    (i : Fin a) :
    multiReduction .add [1] ⟨1, ![a]⟩ src acc h hφ hacc (ix1 i) = ∑ k : Fin b, src (ix2 i k) := by
  refine (Ideal.multiReduction_add_single src acc h hφ hacc (ix1 i)).trans ?_
  exact Finset.sum_congr rfl fun k _ => congrArg src (lift_row h i k)

end Cert.LibRows

end
-- ==== Proof.RegionCombine.lean ====
/-
  The three combine regions: after the launch the output array is the whole-array function
  `Cert.Gcn.combine` of the region's four inputs.

  Entry (p, q) of the result is tanh ((a (p, q) + z (p, q) · ns p) + b q): the arrivals plus the node's own row of z
  scaled by the node's weight, plus the bias entry, in that association. The body computes it on a block of 5000 rows:
  it reads the two [5000, 128] blocks, the [5000, 1] block of the weights' column and the whole [1, 128] bias row,
  spreads the column along the columns and the row down the rows, multiplies, adds twice and applies tanh. Block t of
  the output is rows 5000·t … 5000·t + 4999 of the whole-array function, and the ten blocks cover the 50000 rows.
-/
import proofs.«113640_j1889785611050_1_alg».proof.Proof.Gen.KernelIdeal.Frame
import proofs.«113640_j1889785611050_1_alg».proof.Proof.Gen.ReferenceIdeal
import proofs.«113640_j1889785611050_1_alg».proof.Proof.Spec
import proofs.«113640_j1889785611050_1_alg».proof.Proof.LibRows
import proofs.«113640_j1889785611050_1_alg».proof.Proof.LibHostRows
import Idealize.ShloMosaic.Lib.ValueLayout
import Idealize.ShloMosaic.Lib.Pipeline.Value

noncomputable section
namespace Cert.KernelIdeal.RegionCombine
open Idealize.ShloMosaic Idealize.ShloMosaic.TcCoe Idealize.SL.Sem Cert.KernelIdeal Cert.KernelIdeal.Gen
open Idealize.ShloMosaic.ValueIdx

/-- The zero offsets of a load or store of a whole block. -/
theorem hz : (![0, 0] : Fin 2 → Nat) = fun _ => 0 := funext fun a => by fin_cases a <;> rfl

/-! ## One entry -/

/-- The value at one entry: from the arrivals' entry `a`, the node's own entry `z`, the node's weight `s` and the
    bias entry `b`. -/
def entry (a z s b : EReal) : EReal := Ideal.tanh ((a + z * s) + b)

/-- The body's arithmetic on blocks, read at row `p`, column `q` of the block: the column block's entry `p` and the
    bias row's entry `q` are the ones it meets. -/
theorem body_apply (x0 x1 : FVec Ideal S5000x128 .f32) (x2 : FVec Ideal S5000x1 .f32) (x3 : FVec Ideal S1x128 .f32)
    (p : Fin 5000) (q : Fin 128) :
    tanh (addf (addf x0 (mulf x1 (broadcastTo S5000x128 x2 broadcasts_S5000x1_S5000x128)))
        (broadcastTo S5000x128 x3 broadcasts_S1x128_S5000x128)) (ix2 p q)
      = entry (x0 (ix2 p q)) (x1 (ix2 p q)) (x2 (ix2 p (0 : Fin 1))) (x3 (ix2 (0 : Fin 1) q)) := by
  show Ideal.tanh ((x0 (ix2 p q) + x1 (ix2 p q) * broadcastTo S5000x128 x2 broadcasts_S5000x1_S5000x128 (ix2 p q))
      + broadcastTo S5000x128 x3 broadcasts_S1x128_S5000x128 (ix2 p q)) = _
  rw [Cert.LibRows.spread_apply x2 _ p q (by decide), broadcastTo_1b_ab_apply x3 _ p q]
  rfl

/-- The three regions' payloads are that arithmetic: the shape casts in them are to the same shape. -/
theorem pay1_apply (x0 x1 : FVec Ideal S5000x128 .f32) (x2 : FVec Ideal S5000x1 .f32) (x3 : FVec Ideal S1x128 .f32)
    (p : Fin 5000) (q : Fin 128) :
    k1_pay1 (F := Ideal) x0 x1 x2 x3 (ix2 p q) = entry (x0 (ix2 p q)) (x1 (ix2 p q)) (x2 (ix2 p (0 : Fin 1))) (x3 (ix2 (0 : Fin 1) q)) := by
  unfold k1_pay1
  simp only [shapeCast_self]
  exact body_apply x0 x1 x2 x3 p q
theorem pay3_apply (x0 x1 : FVec Ideal S5000x128 .f32) (x2 : FVec Ideal S5000x1 .f32) (x3 : FVec Ideal S1x128 .f32)
    (p : Fin 5000) (q : Fin 128) :
    k3_pay1 (F := Ideal) x0 x1 x2 x3 (ix2 p q) = entry (x0 (ix2 p q)) (x1 (ix2 p q)) (x2 (ix2 p (0 : Fin 1))) (x3 (ix2 (0 : Fin 1) q)) := by
  unfold k3_pay1
  simp only [shapeCast_self]
  exact body_apply x0 x1 x2 x3 p q
theorem pay5_apply (x0 x1 : FVec Ideal S5000x128 .f32) (x2 : FVec Ideal S5000x1 .f32) (x3 : FVec Ideal S1x128 .f32)
    (p : Fin 5000) (q : Fin 128) :
    k5_pay1 (F := Ideal) x0 x1 x2 x3 (ix2 p q) = entry (x0 (ix2 p q)) (x1 (ix2 p q)) (x2 (ix2 p (0 : Fin 1))) (x3 (ix2 (0 : Fin 1) q)) := by
  unfold k5_pay1
  simp only [shapeCast_self]
  exact body_apply x0 x1 x2 x3 p q

/-- The whole-array function read at node `P`, column `q`: the weights' vector repeated along the columns gives
    its entry `P`, the bias vector repeated down the rows its entry `q`. -/
theorem combine_apply (a z : (⟨S50000x128, .f32⟩ : BufTy).Contents (Elt Ideal)) (ns : (⟨S50000, .f32⟩ : BufTy).Contents (Elt Ideal))
    (b : (⟨S128, .f32⟩ : BufTy).Contents (Elt Ideal)) (P : Fin 50000) (q : Fin 128) :
    Cert.Gcn.combine a z ns b (ix2 P q) = entry (a (ix2 P q)) (z (ix2 P q)) (ns (ix1 P)) (b (ix1 q)) := by
  unfold Cert.Gcn.combine
  show Ideal.tanh ((a (ix2 P q) + z (ix2 P q) * broadcastInDim _ _ _ (broadcastInDim _ _ _ ns) (ix2 P q))
      + broadcastInDim _ _ _ (broadcastInDim _ _ _ b) (ix2 P q)) = _
  rw [Cert.LibHostRows.spread_apply _ _ P q (by decide), Cert.LibHostRows.column_apply _ _ P 0 (by decide),
    Cert.LibHostRows.rowSpread_apply _ _ P q (by decide), Cert.LibHostRows.row_apply _ _ 0 q (by decide)]
  rfl

/-- The column the region is given, read at (P, 0): the weights' vector at `P`. -/
theorem col_apply (ns : (⟨S50000, .f32⟩ : BufTy).Contents (Elt Ideal)) (P : Fin 50000) (u : Fin 1) :
    shapeCast S50000x1 ns shapeCasts_S50000_S50000x1 (ix2 P u) = ns (ix1 P) :=
  Cert.LibRows.column_apply ns _ P u

/-- The row the region is given, read at (0, q): the bias vector at `q`. -/
theorem row_apply (b : (⟨S128, .f32⟩ : BufTy).Contents (Elt Ideal)) (u : Fin 1) (q : Fin 128) :
    shapeCast S1x128 b shapeCasts_S128_S1x128 (ix2 u q) = b (ix1 q) :=
  shapeCast_a_1a_apply b _ u q

/-! ## Region 1: the arrivals are main_v41, the nodes' own rows main_v28, the weights' column main_v27, the bias row main_v42 -/

section Region1
variable (V : (c : Dev nD) → (b : Ref sig .tc) → Buf (Elt Ideal) ((c : Thread nD τ).loc b))

/-- The block index maps over the ten points: the three row-blocked inputs and the output are at block row `t`,
    column block 0; the bias row is the one block (0, 0) at every point. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Block `t` of the arrivals at (p, q) is the array at (5000·t + p, q). -/
theorem blk1_0 (c : Dev nD) (t : Fin cfg1.N) (p : Fin 5000) (q : Fin 128) (P : Fin 50000) (hP : P.val = 5000 * t.val + p.val) :
    (iblk1 V c 0 t : FVec Ideal S5000x128 .f32) (ix2 p q) = (V c main_v41 : FVec Ideal S50000x128 .f32) (ix2 P q) := by
  obtain ⟨e0, e1, -⟩ := idx1 t
  unfold iblk1
  rw [View.read_apply]
  show V c main_v41 _ = V c main_v41 _
  congr 1
  funext a
  apply Fin.ext
  match a with
  | ⟨0, _⟩ => show win1_0.index t (0 : Fin 2) * 5000 + 1 * p.val = P.val; omega
  | ⟨1, _⟩ => show win1_0.index t (1 : Fin 2) * 128 + 1 * q.val = q.val; omega

/-- Block `t` of the nodes' own rows at (p, q) is the array at (5000·t + p, q). -/
theorem blk1_1 (c : Dev nD) (t : Fin cfg1.N) (p : Fin 5000) (q : Fin 128) (P : Fin 50000) (hP : P.val = 5000 * t.val + p.val) :
    (iblk1 V c 1 t : FVec Ideal S5000x128 .f32) (ix2 p q) = (V c main_v28 : FVec Ideal S50000x128 .f32) (ix2 P q) := by
  obtain ⟨-, -, e0, e1, -⟩ := idx1 t
  unfold iblk1
  rw [View.read_apply]
  show V c main_v28 _ = V c main_v28 _
  congr 1
  funext a
  apply Fin.ext
  match a with
  | ⟨0, _⟩ => show win1_1.index t (0 : Fin 2) * 5000 + 1 * p.val = P.val; omega
  | ⟨1, _⟩ => show win1_1.index t (1 : Fin 2) * 128 + 1 * q.val = q.val; omega

/-- Block `t` of the weights' column at (p, 0) is the weights' vector at 5000·t + p. -/
theorem blk1_2 (c : Dev nD) (ns : (⟨S50000, .f32⟩ : BufTy).Contents (Elt Ideal))
    (hns : V c main_v27 = shapeCast _ ns shapeCasts_S50000_S50000x1)
    (t : Fin cfg1.N) (p : Fin 5000) (P : Fin 50000) (hP : P.val = 5000 * t.val + p.val) :
    (iblk1 V c 2 t : FVec Ideal S5000x1 .f32) (ix2 p (0 : Fin 1)) = ns (ix1 P) := by
  obtain ⟨-, -, -, -, e0, e1, -⟩ := idx1 t
  have h : (iblk1 V c 2 t : FVec Ideal S5000x1 .f32) (ix2 p (0 : Fin 1)) = (V c main_v27 : FVec Ideal S50000x1 .f32) (ix2 P (0 : Fin 1)) := by
    unfold iblk1
    rw [View.read_apply]
    show V c main_v27 _ = V c main_v27 _
    congr 1
    funext a
    apply Fin.ext
    match a with
    | ⟨0, _⟩ => show win1_2.index t (0 : Fin 2) * 5000 + 1 * p.val = P.val; omega
    | ⟨1, _⟩ => show win1_2.index t (1 : Fin 2) * 1 + 1 * 0 = 0; omega
  rw [h, hns]
  exact col_apply ns P 0

/-- The bias row's one block at (0, q) is the bias vector at q. -/
theorem blk1_3 (c : Dev nD) (b : (⟨S128, .f32⟩ : BufTy).Contents (Elt Ideal))
    (hb : V c main_v42 = shapeCast _ b shapeCasts_S128_S1x128) (t : Fin cfg1.N) (q : Fin 128) :
    (iblk1 V c 3 t : FVec Ideal S1x128 .f32) (ix2 (0 : Fin 1) q) = b (ix1 q) := by
  obtain ⟨-, -, -, -, -, -, e0, e1, -⟩ := idx1 t
  have h : (iblk1 V c 3 t : FVec Ideal S1x128 .f32) (ix2 (0 : Fin 1) q) = (V c main_v42 : FVec Ideal S1x128 .f32) (ix2 (0 : Fin 1) q) := by
    unfold iblk1
    rw [View.read_apply]
    show V c main_v42 _ = V c main_v42 _
    congr 1
    funext a
    apply Fin.ext
    match a with
    | ⟨0, _⟩ => show win1_3.index t (0 : Fin 2) * 1 + 1 * 0 = 0; omega
    | ⟨1, _⟩ => show win1_3.index t (1 : Fin 2) * 128 + 1 * q.val = q.val; omega
  rw [h, hb]
  exact row_apply b 0 q

/-- The body's result at point `t`, read at a block index, is the whole-array function at the array index 5000·t rows
    further down. -/
theorem point1 (c : Dev nD) (ns : (⟨S50000, .f32⟩ : BufTy).Contents (Elt Ideal)) (b : (⟨S128, .f32⟩ : BufTy).Contents (Elt Ideal))
    (hns : V c main_v27 = shapeCast _ ns shapeCasts_S50000_S50000x1) (hb : V c main_v42 = shapeCast _ b shapeCasts_S128_S1x128)
    (t : Fin cfg1.N) (y : S5000x128.Idx) (i : S50000x128.Idx)
    (h0 : (i 0).val = 5000 * t.val + (y 0).val) (h1 : (i 1).val = (y 1).val) :
    k1_pay1 (F := Ideal) (iblk1 V c 0 t) (iblk1 V c 1 t) (iblk1 V c 2 t) (iblk1 V c 3 t) y
      = Cert.Gcn.combine (V c main_v41) (V c main_v28) ns b i := by
  obtain ⟨p, q, rfl⟩ : ∃ (p : Fin 5000) (q : Fin 128), y = ix2 p q := ⟨y 0, y 1, eq_ix2 y⟩
  obtain ⟨P, Q, rfl⟩ : ∃ (P : Fin 50000) (Q : Fin 128), i = ix2 P Q := ⟨i 0, i 1, eq_ix2 i⟩
  obtain rfl : Q = q := Fin.ext h1
  refine (pay1_apply _ _ _ _ p Q).trans ?_
  refine Eq.trans ?_ (combine_apply _ _ ns b P Q).symm
  rw [blk1_0 V c t p Q P h0, blk1_1 V c t p Q P h0, blk1_2 V c ns hns t p P h0, blk1_3 V c b hb t Q]

/-- What point `t` writes back is block `t` of the whole-array function. -/
theorem flushed1 (c : Dev nD) (ns : (⟨S50000, .f32⟩ : BufTy).Contents (Elt Ideal)) (b : (⟨S128, .f32⟩ : BufTy).Contents (Elt Ideal))
    (hns : V c main_v27 = shapeCast _ ns shapeCasts_S50000_S50000x1) (hb : V c main_v42 = shapeCast _ b shapeCasts_S128_S1x128)
    (t : Fin cfg1.N) :
    (dat1 (F := Ideal) V c).flushed 4 t
      = ((cfg1.win 4).blk t).view.read (Elt Ideal) (Cert.Gcn.combine (V c main_v41) (V c main_v28) ns b) := by
  show (cfg1.win 4).cut (grid1.coords t) ((dat1 (F := Ideal) V c).after 4 t) = _
  rw [after1_4]
  unfold out1_4
  rw [View.canon_unit_zero hz]
  simp only [View.ld_unit_zero (S := S5000x128) hz, View.ld_unit_zero (S := S5000x1) hz, View.ld_unit_zero (S := S1x128) hz]
  obtain ⟨-, -, -, -, -, -, -, -, e0, e1⟩ := idx1 t
  funext j
  show k1_pay1 (F := Ideal) (iblk1 V c 0 t) (iblk1 V c 1 t) (iblk1 V c 2 t) (iblk1 V c 3 t) _
    = Cert.Gcn.combine (V c main_v41) (V c main_v28) ns b (((cfg1.win 4).blk t).view.emb j)
  refine point1 V c ns b hns hb t _ _ ?_ ?_
  · show win1_4.index t (0 : Fin 2) * 5000 + 1 * (j 0).val = 5000 * t.val + (j 0).val; omega
  · show win1_4.index t (1 : Fin 2) * 128 + 1 * (j 1).val = (j 1).val; omega

/-- An array index is in point `t`'s block iff each coordinate is in the block's range on its axis. -/
theorem mem_blk1 (t : Fin cfg1.N) (i : S50000x128.Idx) :
    i ∈ ((cfg1.win 4).blk t).view.set
      ↔ ∀ a : Fin 2, win1_4.index t a * S5000x128.size a ≤ (i a).val ∧ (i a).val < win1_4.index t a * S5000x128.size a + S5000x128.size a := by
  show i ∈ ((View.whole main_v43).slice (win1_4.rect t)).set ↔ _
  rw [View.set_slice_whole, Rect.mem_set_unit]
  exact Iff.rfl

/-- Row r of the array is in the block of point r / 5000: the ten blocks cover the 50000 rows. -/
theorem cover1 (i : S50000x128.Idx) : ∃ t : Fin cfg1.N, (cfg1.win 4).flush t = true ∧ i ∈ ((cfg1.win 4).blk t).view.set := by
  have hi0 : (i 0).val < 50000 := (i 0).isLt
  have hi1 : (i 1).val < 128 := (i 1).isLt
  obtain ⟨t, ht⟩ : ∃ t : Fin cfg1.N, t.val = (i 0).val / 5000 := ⟨⟨(i 0).val / 5000, by rw [show cfg1.N = 10 from N_1]; omega⟩, rfl⟩
  obtain ⟨-, -, -, -, -, -, -, -, e0, e1⟩ := idx1 t
  refine ⟨t, flush1_4 t, ?_⟩
  rw [mem_blk1]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

theorem comb1 (c : Dev nD) (ns : (⟨S50000, .f32⟩ : BufTy).Contents (Elt Ideal)) (b : (⟨S128, .f32⟩ : BufTy).Contents (Elt Ideal))
    (hns : V c main_v27 = shapeCast _ ns shapeCasts_S50000_S50000x1) (hb : V c main_v42 = shapeCast _ b shapeCasts_S128_S1x128) :
    (dat1 (F := Ideal) V c).arrAt 4 cfg1.N = Cert.Gcn.combine (V c main_v41) (V c main_v28) ns b :=
  (dat1 (F := Ideal) V c).arrAt_eq_of_cover 4 (Cert.Gcn.combine (V c main_v41) (V c main_v28) ns b)
    (fun t _ => flushed1 V c ns b hns hb t) cover1

end Region1

/-! ## Region 3: the arrivals are main_v57, the nodes' own rows main_v44, the weights' column main_v27, the bias row main_v58 -/

section Region3
variable (V : (c : Dev nD) → (b : Ref sig .tc) → Buf (Elt Ideal) ((c : Thread nD τ).loc b))

/-- The block index maps over the ten points: the three row-blocked inputs and the output are at block row `t`,
    column block 0; the bias row is the one block (0, 0) at every point. -/
theorem idx3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- Block `t` of the arrivals at (p, q) is the array at (5000·t + p, q). -/
theorem blk3_0 (c : Dev nD) (t : Fin cfg3.N) (p : Fin 5000) (q : Fin 128) (P : Fin 50000) (hP : P.val = 5000 * t.val + p.val) :
    (iblk3 V c 0 t : FVec Ideal S5000x128 .f32) (ix2 p q) = (V c main_v57 : FVec Ideal S50000x128 .f32) (ix2 P q) := by
  obtain ⟨e0, e1, -⟩ := idx3 t
  unfold iblk3
  rw [View.read_apply]
  show V c main_v57 _ = V c main_v57 _
  congr 1
  funext a
  apply Fin.ext
  match a with
  | ⟨0, _⟩ => show win3_0.index t (0 : Fin 2) * 5000 + 1 * p.val = P.val; omega
  | ⟨1, _⟩ => show win3_0.index t (1 : Fin 2) * 128 + 1 * q.val = q.val; omega

/-- Block `t` of the nodes' own rows at (p, q) is the array at (5000·t + p, q). -/
theorem blk3_1 (c : Dev nD) (t : Fin cfg3.N) (p : Fin 5000) (q : Fin 128) (P : Fin 50000) (hP : P.val = 5000 * t.val + p.val) :
    (iblk3 V c 1 t : FVec Ideal S5000x128 .f32) (ix2 p q) = (V c main_v44 : FVec Ideal S50000x128 .f32) (ix2 P q) := by
  obtain ⟨-, -, e0, e1, -⟩ := idx3 t
  unfold iblk3
  rw [View.read_apply]
  show V c main_v44 _ = V c main_v44 _
  congr 1
  funext a
  apply Fin.ext
  match a with
  | ⟨0, _⟩ => show win3_1.index t (0 : Fin 2) * 5000 + 1 * p.val = P.val; omega
  | ⟨1, _⟩ => show win3_1.index t (1 : Fin 2) * 128 + 1 * q.val = q.val; omega

/-- Block `t` of the weights' column at (p, 0) is the weights' vector at 5000·t + p. -/
theorem blk3_2 (c : Dev nD) (ns : (⟨S50000, .f32⟩ : BufTy).Contents (Elt Ideal))
    (hns : V c main_v27 = shapeCast _ ns shapeCasts_S50000_S50000x1)
    (t : Fin cfg3.N) (p : Fin 5000) (P : Fin 50000) (hP : P.val = 5000 * t.val + p.val) :
    (iblk3 V c 2 t : FVec Ideal S5000x1 .f32) (ix2 p (0 : Fin 1)) = ns (ix1 P) := by
  obtain ⟨-, -, -, -, e0, e1, -⟩ := idx3 t
  have h : (iblk3 V c 2 t : FVec Ideal S5000x1 .f32) (ix2 p (0 : Fin 1)) = (V c main_v27 : FVec Ideal S50000x1 .f32) (ix2 P (0 : Fin 1)) := by
    unfold iblk3
    rw [View.read_apply]
    show V c main_v27 _ = V c main_v27 _
    congr 1
    funext a
    apply Fin.ext
    match a with
    | ⟨0, _⟩ => show win3_2.index t (0 : Fin 2) * 5000 + 1 * p.val = P.val; omega
    | ⟨1, _⟩ => show win3_2.index t (1 : Fin 2) * 1 + 1 * 0 = 0; omega
  rw [h, hns]
  exact col_apply ns P 0

/-- The bias row's one block at (0, q) is the bias vector at q. -/
theorem blk3_3 (c : Dev nD) (b : (⟨S128, .f32⟩ : BufTy).Contents (Elt Ideal))
    (hb : V c main_v58 = shapeCast _ b shapeCasts_S128_S1x128) (t : Fin cfg3.N) (q : Fin 128) :
    (iblk3 V c 3 t : FVec Ideal S1x128 .f32) (ix2 (0 : Fin 1) q) = b (ix1 q) := by
  obtain ⟨-, -, -, -, -, -, e0, e1, -⟩ := idx3 t
  have h : (iblk3 V c 3 t : FVec Ideal S1x128 .f32) (ix2 (0 : Fin 1) q) = (V c main_v58 : FVec Ideal S1x128 .f32) (ix2 (0 : Fin 1) q) := by
    unfold iblk3
    rw [View.read_apply]
    show V c main_v58 _ = V c main_v58 _
    congr 1
    funext a
    apply Fin.ext
    match a with
    | ⟨0, _⟩ => show win3_3.index t (0 : Fin 2) * 1 + 1 * 0 = 0; omega
    | ⟨1, _⟩ => show win3_3.index t (1 : Fin 2) * 128 + 1 * q.val = q.val; omega
  rw [h, hb]
  exact row_apply b 0 q

/-- The body's result at point `t`, read at a block index, is the whole-array function at the array index 5000·t rows
    further down. -/
theorem point3 (c : Dev nD) (ns : (⟨S50000, .f32⟩ : BufTy).Contents (Elt Ideal)) (b : (⟨S128, .f32⟩ : BufTy).Contents (Elt Ideal))
    (hns : V c main_v27 = shapeCast _ ns shapeCasts_S50000_S50000x1) (hb : V c main_v58 = shapeCast _ b shapeCasts_S128_S1x128)
    (t : Fin cfg3.N) (y : S5000x128.Idx) (i : S50000x128.Idx)
    (h0 : (i 0).val = 5000 * t.val + (y 0).val) (h1 : (i 1).val = (y 1).val) :
    k3_pay1 (F := Ideal) (iblk3 V c 0 t) (iblk3 V c 1 t) (iblk3 V c 2 t) (iblk3 V c 3 t) y
      = Cert.Gcn.combine (V c main_v57) (V c main_v44) ns b i := by
  obtain ⟨p, q, rfl⟩ : ∃ (p : Fin 5000) (q : Fin 128), y = ix2 p q := ⟨y 0, y 1, eq_ix2 y⟩
  obtain ⟨P, Q, rfl⟩ : ∃ (P : Fin 50000) (Q : Fin 128), i = ix2 P Q := ⟨i 0, i 1, eq_ix2 i⟩
  obtain rfl : Q = q := Fin.ext h1
  refine (pay3_apply _ _ _ _ p Q).trans ?_
  refine Eq.trans ?_ (combine_apply _ _ ns b P Q).symm
  rw [blk3_0 V c t p Q P h0, blk3_1 V c t p Q P h0, blk3_2 V c ns hns t p P h0, blk3_3 V c b hb t Q]

/-- What point `t` writes back is block `t` of the whole-array function. -/
theorem flushed3 (c : Dev nD) (ns : (⟨S50000, .f32⟩ : BufTy).Contents (Elt Ideal)) (b : (⟨S128, .f32⟩ : BufTy).Contents (Elt Ideal))
    (hns : V c main_v27 = shapeCast _ ns shapeCasts_S50000_S50000x1) (hb : V c main_v58 = shapeCast _ b shapeCasts_S128_S1x128)
    (t : Fin cfg3.N) :
    (dat3 (F := Ideal) V c).flushed 4 t
      = ((cfg3.win 4).blk t).view.read (Elt Ideal) (Cert.Gcn.combine (V c main_v57) (V c main_v44) ns b) := by
  show (cfg3.win 4).cut (grid3.coords t) ((dat3 (F := Ideal) V c).after 4 t) = _
  rw [after3_4]
  unfold out3_4
  rw [View.canon_unit_zero hz]
  simp only [View.ld_unit_zero (S := S5000x128) hz, View.ld_unit_zero (S := S5000x1) hz, View.ld_unit_zero (S := S1x128) hz]
  obtain ⟨-, -, -, -, -, -, -, -, e0, e1⟩ := idx3 t
  funext j
  show k3_pay1 (F := Ideal) (iblk3 V c 0 t) (iblk3 V c 1 t) (iblk3 V c 2 t) (iblk3 V c 3 t) _
    = Cert.Gcn.combine (V c main_v57) (V c main_v44) ns b (((cfg3.win 4).blk t).view.emb j)
  refine point3 V c ns b hns hb t _ _ ?_ ?_
  · show win3_4.index t (0 : Fin 2) * 5000 + 1 * (j 0).val = 5000 * t.val + (j 0).val; omega
  · show win3_4.index t (1 : Fin 2) * 128 + 1 * (j 1).val = (j 1).val; omega

/-- An array index is in point `t`'s block iff each coordinate is in the block's range on its axis. -/
theorem mem_blk3 (t : Fin cfg3.N) (i : S50000x128.Idx) :
    i ∈ ((cfg3.win 4).blk t).view.set
      ↔ ∀ a : Fin 2, win3_4.index t a * S5000x128.size a ≤ (i a).val ∧ (i a).val < win3_4.index t a * S5000x128.size a + S5000x128.size a := by
  show i ∈ ((View.whole main_v59).slice (win3_4.rect t)).set ↔ _
  rw [View.set_slice_whole, Rect.mem_set_unit]
  exact Iff.rfl

/-- Row r of the array is in the block of point r / 5000: the ten blocks cover the 50000 rows. -/
theorem cover3 (i : S50000x128.Idx) : ∃ t : Fin cfg3.N, (cfg3.win 4).flush t = true ∧ i ∈ ((cfg3.win 4).blk t).view.set := by
  have hi0 : (i 0).val < 50000 := (i 0).isLt
  have hi1 : (i 1).val < 128 := (i 1).isLt
  obtain ⟨t, ht⟩ : ∃ t : Fin cfg3.N, t.val = (i 0).val / 5000 := ⟨⟨(i 0).val / 5000, by rw [show cfg3.N = 10 from N_3]; omega⟩, rfl⟩
  obtain ⟨-, -, -, -, -, -, -, -, e0, e1⟩ := idx3 t
  refine ⟨t, flush3_4 t, ?_⟩
  rw [mem_blk3]
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 128 ≤ (i 1).val ∧ (i 1).val < win3_4.index t (1 : Fin 2) * 128 + 128; omega

theorem comb3 (c : Dev nD) (ns : (⟨S50000, .f32⟩ : BufTy).Contents (Elt Ideal)) (b : (⟨S128, .f32⟩ : BufTy).Contents (Elt Ideal))
    (hns : V c main_v27 = shapeCast _ ns shapeCasts_S50000_S50000x1) (hb : V c main_v58 = shapeCast _ b shapeCasts_S128_S1x128) :
    (dat3 (F := Ideal) V c).arrAt 4 cfg3.N = Cert.Gcn.combine (V c main_v57) (V c main_v44) ns b :=
  (dat3 (F := Ideal) V c).arrAt_eq_of_cover 4 (Cert.Gcn.combine (V c main_v57) (V c main_v44) ns b)
    (fun t _ => flushed3 V c ns b hns hb t) cover3

end Region3

/-! ## Region 5: the arrivals are main_v73, the nodes' own rows main_v60, the weights' column main_v27, the bias row main_v74 -/

section Region5
variable (V : (c : Dev nD) → (b : Ref sig .tc) → Buf (Elt Ideal) ((c : Thread nD τ).loc b))

/-- The block index maps over the ten points: the three row-blocked inputs and the output are at block row `t`,
    column block 0; the bias row is the one block (0, 0) at every point. -/
theorem idx5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- Block `t` of the arrivals at (p, q) is the array at (5000·t + p, q). -/
theorem blk5_0 (c : Dev nD) (t : Fin cfg5.N) (p : Fin 5000) (q : Fin 128) (P : Fin 50000) (hP : P.val = 5000 * t.val + p.val) :
    (iblk5 V c 0 t : FVec Ideal S5000x128 .f32) (ix2 p q) = (V c main_v73 : FVec Ideal S50000x128 .f32) (ix2 P q) := by
  obtain ⟨e0, e1, -⟩ := idx5 t
  unfold iblk5
  rw [View.read_apply]
  show V c main_v73 _ = V c main_v73 _
  congr 1
  funext a
  apply Fin.ext
  match a with
  | ⟨0, _⟩ => show win5_0.index t (0 : Fin 2) * 5000 + 1 * p.val = P.val; omega
  | ⟨1, _⟩ => show win5_0.index t (1 : Fin 2) * 128 + 1 * q.val = q.val; omega

/-- Block `t` of the nodes' own rows at (p, q) is the array at (5000·t + p, q). -/
theorem blk5_1 (c : Dev nD) (t : Fin cfg5.N) (p : Fin 5000) (q : Fin 128) (P : Fin 50000) (hP : P.val = 5000 * t.val + p.val) :
    (iblk5 V c 1 t : FVec Ideal S5000x128 .f32) (ix2 p q) = (V c main_v60 : FVec Ideal S50000x128 .f32) (ix2 P q) := by
  obtain ⟨-, -, e0, e1, -⟩ := idx5 t
  unfold iblk5
  rw [View.read_apply]
  show V c main_v60 _ = V c main_v60 _
  congr 1
  funext a
  apply Fin.ext
  match a with
  | ⟨0, _⟩ => show win5_1.index t (0 : Fin 2) * 5000 + 1 * p.val = P.val; omega
  | ⟨1, _⟩ => show win5_1.index t (1 : Fin 2) * 128 + 1 * q.val = q.val; omega

/-- Block `t` of the weights' column at (p, 0) is the weights' vector at 5000·t + p. -/
theorem blk5_2 (c : Dev nD) (ns : (⟨S50000, .f32⟩ : BufTy).Contents (Elt Ideal))
    (hns : V c main_v27 = shapeCast _ ns shapeCasts_S50000_S50000x1)
    (t : Fin cfg5.N) (p : Fin 5000) (P : Fin 50000) (hP : P.val = 5000 * t.val + p.val) :
    (iblk5 V c 2 t : FVec Ideal S5000x1 .f32) (ix2 p (0 : Fin 1)) = ns (ix1 P) := by
  obtain ⟨-, -, -, -, e0, e1, -⟩ := idx5 t
  have h : (iblk5 V c 2 t : FVec Ideal S5000x1 .f32) (ix2 p (0 : Fin 1)) = (V c main_v27 : FVec Ideal S50000x1 .f32) (ix2 P (0 : Fin 1)) := by
    unfold iblk5
    rw [View.read_apply]
    show V c main_v27 _ = V c main_v27 _
    congr 1
    funext a
    apply Fin.ext
    match a with
    | ⟨0, _⟩ => show win5_2.index t (0 : Fin 2) * 5000 + 1 * p.val = P.val; omega
    | ⟨1, _⟩ => show win5_2.index t (1 : Fin 2) * 1 + 1 * 0 = 0; omega
  rw [h, hns]
  exact col_apply ns P 0

/-- The bias row's one block at (0, q) is the bias vector at q. -/
theorem blk5_3 (c : Dev nD) (b : (⟨S128, .f32⟩ : BufTy).Contents (Elt Ideal))
    (hb : V c main_v74 = shapeCast _ b shapeCasts_S128_S1x128) (t : Fin cfg5.N) (q : Fin 128) :
    (iblk5 V c 3 t : FVec Ideal S1x128 .f32) (ix2 (0 : Fin 1) q) = b (ix1 q) := by
  obtain ⟨-, -, -, -, -, -, e0, e1, -⟩ := idx5 t
  have h : (iblk5 V c 3 t : FVec Ideal S1x128 .f32) (ix2 (0 : Fin 1) q) = (V c main_v74 : FVec Ideal S1x128 .f32) (ix2 (0 : Fin 1) q) := by
    unfold iblk5
    rw [View.read_apply]
    show V c main_v74 _ = V c main_v74 _
    congr 1
    funext a
    apply Fin.ext
    match a with
    | ⟨0, _⟩ => show win5_3.index t (0 : Fin 2) * 1 + 1 * 0 = 0; omega
    | ⟨1, _⟩ => show win5_3.index t (1 : Fin 2) * 128 + 1 * q.val = q.val; omega
  rw [h, hb]
  exact row_apply b 0 q

/-- The body's result at point `t`, read at a block index, is the whole-array function at the array index 5000·t rows
    further down. -/
theorem point5 (c : Dev nD) (ns : (⟨S50000, .f32⟩ : BufTy).Contents (Elt Ideal)) (b : (⟨S128, .f32⟩ : BufTy).Contents (Elt Ideal))
    (hns : V c main_v27 = shapeCast _ ns shapeCasts_S50000_S50000x1) (hb : V c main_v74 = shapeCast _ b shapeCasts_S128_S1x128)
    (t : Fin cfg5.N) (y : S5000x128.Idx) (i : S50000x128.Idx)
    (h0 : (i 0).val = 5000 * t.val + (y 0).val) (h1 : (i 1).val = (y 1).val) :
    k5_pay1 (F := Ideal) (iblk5 V c 0 t) (iblk5 V c 1 t) (iblk5 V c 2 t) (iblk5 V c 3 t) y
      = Cert.Gcn.combine (V c main_v73) (V c main_v60) ns b i := by
  obtain ⟨p, q, rfl⟩ : ∃ (p : Fin 5000) (q : Fin 128), y = ix2 p q := ⟨y 0, y 1, eq_ix2 y⟩
  obtain ⟨P, Q, rfl⟩ : ∃ (P : Fin 50000) (Q : Fin 128), i = ix2 P Q := ⟨i 0, i 1, eq_ix2 i⟩
  obtain rfl : Q = q := Fin.ext h1
  refine (pay5_apply _ _ _ _ p Q).trans ?_
  refine Eq.trans ?_ (combine_apply _ _ ns b P Q).symm
  rw [blk5_0 V c t p Q P h0, blk5_1 V c t p Q P h0, blk5_2 V c ns hns t p P h0, blk5_3 V c b hb t Q]

/-- What point `t` writes back is block `t` of the whole-array function. -/
theorem flushed5 (c : Dev nD) (ns : (⟨S50000, .f32⟩ : BufTy).Contents (Elt Ideal)) (b : (⟨S128, .f32⟩ : BufTy).Contents (Elt Ideal))
    (hns : V c main_v27 = shapeCast _ ns shapeCasts_S50000_S50000x1) (hb : V c main_v74 = shapeCast _ b shapeCasts_S128_S1x128)
    (t : Fin cfg5.N) :
    (dat5 (F := Ideal) V c).flushed 4 t
      = ((cfg5.win 4).blk t).view.read (Elt Ideal) (Cert.Gcn.combine (V c main_v73) (V c main_v60) ns b) := by
  show (cfg5.win 4).cut (grid5.coords t) ((dat5 (F := Ideal) V c).after 4 t) = _
  rw [after5_4]
  unfold out5_4
  rw [View.canon_unit_zero hz]
  simp only [View.ld_unit_zero (S := S5000x128) hz, View.ld_unit_zero (S := S5000x1) hz, View.ld_unit_zero (S := S1x128) hz]
  obtain ⟨-, -, -, -, -, -, -, -, e0, e1⟩ := idx5 t
  funext j
  show k5_pay1 (F := Ideal) (iblk5 V c 0 t) (iblk5 V c 1 t) (iblk5 V c 2 t) (iblk5 V c 3 t) _
    = Cert.Gcn.combine (V c main_v73) (V c main_v60) ns b (((cfg5.win 4).blk t).view.emb j)
  refine point5 V c ns b hns hb t _ _ ?_ ?_
  · show win5_4.index t (0 : Fin 2) * 5000 + 1 * (j 0).val = 5000 * t.val + (j 0).val; omega
  · show win5_4.index t (1 : Fin 2) * 128 + 1 * (j 1).val = (j 1).val; omega

/-- An array index is in point `t`'s block iff each coordinate is in the block's range on its axis. -/
theorem mem_blk5 (t : Fin cfg5.N) (i : S50000x128.Idx) :
    i ∈ ((cfg5.win 4).blk t).view.set
      ↔ ∀ a : Fin 2, win5_4.index t a * S5000x128.size a ≤ (i a).val ∧ (i a).val < win5_4.index t a * S5000x128.size a + S5000x128.size a := by
  show i ∈ ((View.whole main_v75).slice (win5_4.rect t)).set ↔ _
  rw [View.set_slice_whole, Rect.mem_set_unit]
  exact Iff.rfl

/-- Row r of the array is in the block of point r / 5000: the ten blocks cover the 50000 rows. -/
theorem cover5 (i : S50000x128.Idx) : ∃ t : Fin cfg5.N, (cfg5.win 4).flush t = true ∧ i ∈ ((cfg5.win 4).blk t).view.set := by
  have hi0 : (i 0).val < 50000 := (i 0).isLt
  have hi1 : (i 1).val < 128 := (i 1).isLt
  obtain ⟨t, ht⟩ : ∃ t : Fin cfg5.N, t.val = (i 0).val / 5000 := ⟨⟨(i 0).val / 5000, by rw [show cfg5.N = 10 from N_5]; omega⟩, rfl⟩
  obtain ⟨-, -, -, -, -, -, -, -, e0, e1⟩ := idx5 t
  refine ⟨t, flush5_4 t, ?_⟩
  rw [mem_blk5]
  intro a
  match a with
  | ⟨0, _⟩ => show win5_4.index t (0 : Fin 2) * 5000 ≤ (i 0).val ∧ (i 0).val < win5_4.index t (0 : Fin 2) * 5000 + 5000; omega
  | ⟨1, _⟩ => show win5_4.index t (1 : Fin 2) * 128 ≤ (i 1).val ∧ (i 1).val < win5_4.index t (1 : Fin 2) * 128 + 128; omega

theorem comb5 (c : Dev nD) (ns : (⟨S50000, .f32⟩ : BufTy).Contents (Elt Ideal)) (b : (⟨S128, .f32⟩ : BufTy).Contents (Elt Ideal))
    (hns : V c main_v27 = shapeCast _ ns shapeCasts_S50000_S50000x1) (hb : V c main_v74 = shapeCast _ b shapeCasts_S128_S1x128) :
    (dat5 (F := Ideal) V c).arrAt 4 cfg5.N = Cert.Gcn.combine (V c main_v73) (V c main_v60) ns b :=
  (dat5 (F := Ideal) V c).arrAt_eq_of_cover 4 (Cert.Gcn.combine (V c main_v73) (V c main_v60) ns b)
    (fun t _ => flushed5 V c ns b hns hb t) cover5

end Region5

end Cert.KernelIdeal.RegionCombine
end
-- ==== Proof.Chain.lean ====
/-
  The kernel program's result, followed through its thirteen segments.

  Between launches the buffers' contents are a fold from the launch memory.  Each buffer that a later segment reads is
  followed from the segment that writes it to the segment that reads it: a stretch of host operations leaves untouched
  every buffer none of its operations writes, and a launch leaves untouched every buffer that is not one of its output
  arrays.  Each dense launch's output array is the whole-array function of its inputs proved for that launch (a product
  with the layer's weights; the arrivals, the node's own scaled row and the bias combined under tanh; the last linear
  map), and each stretch of host operations applies to those values exactly the operations the network's definition
  names.  Composed, the result buffer holds the network of Spec.lean at the arguments' launch contents.
-/
import proofs.«113640_j1889785611050_1_alg».proof.Proof.Gen.KernelIdeal.Frame
import proofs.«113640_j1889785611050_1_alg».proof.Proof.Gen.ReferenceIdeal
import proofs.«113640_j1889785611050_1_alg».proof.Proof.Spec
import proofs.«113640_j1889785611050_1_alg».proof.Proof.RegionMatmul
import proofs.«113640_j1889785611050_1_alg».proof.Proof.RegionCombine
import Idealize.ShloMosaic.Lib.StableHlo.Run

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-- A buffer that no operation of a stretch writes holds after the stretch what it held before. -/
macro "host_keeps " ops:ident : tactic => `(tactic|
  exact StableHlo.after_of_forall_not_mem _ _ (List.forall_iff_forall_mem.mp (by
    simp only [$ops:ident, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-! ## The values carried through the program -/

/-- The edge list's two rows, the edge and node weights, as the host computes them from the edge list. -/
abbrev src : Cert.Gcn.Arr Ideal ⟨S800000, .i32⟩ := Cert.Gcn.srcOf (m ((c : Thread nD τ).loc main_arg1))
abbrev dst : Cert.Gcn.Arr Ideal ⟨S800000, .i32⟩ := Cert.Gcn.dstOf (m ((c : Thread nD τ).loc main_arg1))
abbrev nrm : Cert.Gcn.Arr Ideal ⟨S800000, .f32⟩ := Cert.Gcn.edgeNorm (src m c) (dst m c)
/-- The node weights as the one-column array the combine launches read. -/
abbrev nsCol : Cert.Gcn.Arr Ideal ⟨S50000x1, .f32⟩ := shapeCast _ (Cert.Gcn.selfNorm (dst m c)) shapeCasts_S50000_S50000x1

/-- The node features after each layer, and each layer's product with its weights. -/
abbrev Z1 : Cert.Gcn.Arr Ideal ⟨S50000x128, .f32⟩ :=
  Cert.Gcn.mm (m ((c : Thread nD τ).loc main_arg0)) (m ((c : Thread nD τ).loc main_arg3))
abbrev H1 : Cert.Gcn.Arr Ideal ⟨S50000x128, .f32⟩ :=
  Cert.Gcn.layer (src m c) (dst m c) (m ((c : Thread nD τ).loc main_arg0)) (m ((c : Thread nD τ).loc main_arg3))
    (m ((c : Thread nD τ).loc main_arg4))
abbrev Z2 : Cert.Gcn.Arr Ideal ⟨S50000x128, .f32⟩ := Cert.Gcn.mm (H1 m c) (m ((c : Thread nD τ).loc main_arg5))
abbrev H2 : Cert.Gcn.Arr Ideal ⟨S50000x128, .f32⟩ :=
  Cert.Gcn.layer (src m c) (dst m c) (H1 m c) (m ((c : Thread nD τ).loc main_arg5)) (m ((c : Thread nD τ).loc main_arg6))
abbrev Z3 : Cert.Gcn.Arr Ideal ⟨S50000x128, .f32⟩ := Cert.Gcn.mm (H2 m c) (m ((c : Thread nD τ).loc main_arg7))
abbrev H3 : Cert.Gcn.Arr Ideal ⟨S50000x128, .f32⟩ :=
  Cert.Gcn.layer (src m c) (dst m c) (H2 m c) (m ((c : Thread nD τ).loc main_arg7)) (m ((c : Thread nD τ).loc main_arg8))

/-! ## After the first stretch of host operations: the arguments as launched, the graph's index and weight arrays -/

theorem W1_arg0 : W1 m ρ c (Proc.devRef .tc main_arg0) = m ((c : Thread nD τ).loc main_arg0) := by host_keeps hostOps0
theorem W1_arg2 : W1 m ρ c (Proc.devRef .tc main_arg2) = m ((c : Thread nD τ).loc main_arg2) := by host_keeps hostOps0
theorem W1_arg3 : W1 m ρ c (Proc.devRef .tc main_arg3) = m ((c : Thread nD τ).loc main_arg3) := by host_keeps hostOps0
theorem W1_arg4 : W1 m ρ c (Proc.devRef .tc main_arg4) = m ((c : Thread nD τ).loc main_arg4) := by host_keeps hostOps0
theorem W1_arg5 : W1 m ρ c (Proc.devRef .tc main_arg5) = m ((c : Thread nD τ).loc main_arg5) := by host_keeps hostOps0
theorem W1_arg6 : W1 m ρ c (Proc.devRef .tc main_arg6) = m ((c : Thread nD τ).loc main_arg6) := by host_keeps hostOps0
theorem W1_arg7 : W1 m ρ c (Proc.devRef .tc main_arg7) = m ((c : Thread nD τ).loc main_arg7) := by host_keeps hostOps0
theorem W1_arg8 : W1 m ρ c (Proc.devRef .tc main_arg8) = m ((c : Thread nD τ).loc main_arg8) := by host_keeps hostOps0
theorem W1_arg9 : W1 m ρ c (Proc.devRef .tc main_arg9) = m ((c : Thread nD τ).loc main_arg9) := by host_keeps hostOps0
theorem W1_arg10 : W1 m ρ c (Proc.devRef .tc main_arg10) = m ((c : Thread nD τ).loc main_arg10) := by host_keeps hostOps0

theorem W1_v1 : W1 m ρ c (Proc.devRef .tc main_v1) = src m c := by
  show StableHlo.after hostOps0 (W0 m ρ c) (Proc.devRef .tc main_v1) = _
  after_results_simp
  rfl
theorem W1_v3 : W1 m ρ c (Proc.devRef .tc main_v3) = dst m c := by
  show StableHlo.after hostOps0 (W0 m ρ c) (Proc.devRef .tc main_v3) = _
  after_results_simp
  rfl
theorem W1_v25 : W1 m ρ c (Proc.devRef .tc main_v25) = nrm m c := by
  show StableHlo.after hostOps0 (W0 m ρ c) (Proc.devRef .tc main_v25) = _
  after_results_simp
  rfl
theorem W1_v27 : W1 m ρ c (Proc.devRef .tc main_v27) = nsCol m c := by
  show StableHlo.after hostOps0 (W0 m ρ c) (Proc.devRef .tc main_v27) = _
  after_results_simp
  rfl

/-! ## After the first launch: the first layer's product -/

theorem W2_arg2 : W2 m ρ c (Proc.devRef .tc main_arg2) = m ((c : Thread nD τ).loc main_arg2) :=
  (W2_of_ne m ρ c main_arg2 (by decide)).trans (W1_arg2 m ρ c)
theorem W2_arg4 : W2 m ρ c (Proc.devRef .tc main_arg4) = m ((c : Thread nD τ).loc main_arg4) :=
  (W2_of_ne m ρ c main_arg4 (by decide)).trans (W1_arg4 m ρ c)
theorem W2_arg5 : W2 m ρ c (Proc.devRef .tc main_arg5) = m ((c : Thread nD τ).loc main_arg5) :=
  (W2_of_ne m ρ c main_arg5 (by decide)).trans (W1_arg5 m ρ c)
theorem W2_arg6 : W2 m ρ c (Proc.devRef .tc main_arg6) = m ((c : Thread nD τ).loc main_arg6) :=
  (W2_of_ne m ρ c main_arg6 (by decide)).trans (W1_arg6 m ρ c)
theorem W2_arg7 : W2 m ρ c (Proc.devRef .tc main_arg7) = m ((c : Thread nD τ).loc main_arg7) :=
  (W2_of_ne m ρ c main_arg7 (by decide)).trans (W1_arg7 m ρ c)
theorem W2_arg8 : W2 m ρ c (Proc.devRef .tc main_arg8) = m ((c : Thread nD τ).loc main_arg8) :=
  (W2_of_ne m ρ c main_arg8 (by decide)).trans (W1_arg8 m ρ c)
theorem W2_arg9 : W2 m ρ c (Proc.devRef .tc main_arg9) = m ((c : Thread nD τ).loc main_arg9) :=
  (W2_of_ne m ρ c main_arg9 (by decide)).trans (W1_arg9 m ρ c)
theorem W2_arg10 : W2 m ρ c (Proc.devRef .tc main_arg10) = m ((c : Thread nD τ).loc main_arg10) :=
  (W2_of_ne m ρ c main_arg10 (by decide)).trans (W1_arg10 m ρ c)
theorem W2_v1 : W2 m ρ c (Proc.devRef .tc main_v1) = src m c :=
  (W2_of_ne m ρ c main_v1 (by decide)).trans (W1_v1 m ρ c)
theorem W2_v3 : W2 m ρ c (Proc.devRef .tc main_v3) = dst m c :=
  (W2_of_ne m ρ c main_v3 (by decide)).trans (W1_v3 m ρ c)
theorem W2_v25 : W2 m ρ c (Proc.devRef .tc main_v25) = nrm m c :=
  (W2_of_ne m ρ c main_v25 (by decide)).trans (W1_v25 m ρ c)
theorem W2_v27 : W2 m ρ c (Proc.devRef .tc main_v27) = nsCol m c :=
  (W2_of_ne m ρ c main_v27 (by decide)).trans (W1_v27 m ρ c)
theorem W2_v28 : W2 m ρ c (Proc.devRef .tc main_v28) = Z1 m c :=
  (W2_arr m ρ c 2).trans ((Cert.KernelIdeal.RegionMatmul.mm0 (V1 m ρ) c).trans
    (congrArg₂ Cert.Gcn.mm (W1_arg0 m ρ c) (W1_arg3 m ρ c)))

/-! ## After the second stretch: what arrives at each node, and the bias as a row -/

theorem W3_arg2 : W3 m ρ c (Proc.devRef .tc main_arg2) = m ((c : Thread nD τ).loc main_arg2) :=
  (by host_keeps hostOps1 : W3 m ρ c (Proc.devRef .tc main_arg2) = W2 m ρ c (Proc.devRef .tc main_arg2)).trans (W2_arg2 m ρ c)
theorem W3_arg5 : W3 m ρ c (Proc.devRef .tc main_arg5) = m ((c : Thread nD τ).loc main_arg5) :=
  (by host_keeps hostOps1 : W3 m ρ c (Proc.devRef .tc main_arg5) = W2 m ρ c (Proc.devRef .tc main_arg5)).trans (W2_arg5 m ρ c)
theorem W3_arg6 : W3 m ρ c (Proc.devRef .tc main_arg6) = m ((c : Thread nD τ).loc main_arg6) :=
  (by host_keeps hostOps1 : W3 m ρ c (Proc.devRef .tc main_arg6) = W2 m ρ c (Proc.devRef .tc main_arg6)).trans (W2_arg6 m ρ c)
theorem W3_arg7 : W3 m ρ c (Proc.devRef .tc main_arg7) = m ((c : Thread nD τ).loc main_arg7) :=
  (by host_keeps hostOps1 : W3 m ρ c (Proc.devRef .tc main_arg7) = W2 m ρ c (Proc.devRef .tc main_arg7)).trans (W2_arg7 m ρ c)
theorem W3_arg8 : W3 m ρ c (Proc.devRef .tc main_arg8) = m ((c : Thread nD τ).loc main_arg8) :=
  (by host_keeps hostOps1 : W3 m ρ c (Proc.devRef .tc main_arg8) = W2 m ρ c (Proc.devRef .tc main_arg8)).trans (W2_arg8 m ρ c)
theorem W3_arg9 : W3 m ρ c (Proc.devRef .tc main_arg9) = m ((c : Thread nD τ).loc main_arg9) :=
  (by host_keeps hostOps1 : W3 m ρ c (Proc.devRef .tc main_arg9) = W2 m ρ c (Proc.devRef .tc main_arg9)).trans (W2_arg9 m ρ c)
theorem W3_arg10 : W3 m ρ c (Proc.devRef .tc main_arg10) = m ((c : Thread nD τ).loc main_arg10) :=
  (by host_keeps hostOps1 : W3 m ρ c (Proc.devRef .tc main_arg10) = W2 m ρ c (Proc.devRef .tc main_arg10)).trans (W2_arg10 m ρ c)
theorem W3_v1 : W3 m ρ c (Proc.devRef .tc main_v1) = src m c :=
  (by host_keeps hostOps1 : W3 m ρ c (Proc.devRef .tc main_v1) = W2 m ρ c (Proc.devRef .tc main_v1)).trans (W2_v1 m ρ c)
theorem W3_v3 : W3 m ρ c (Proc.devRef .tc main_v3) = dst m c :=
  (by host_keeps hostOps1 : W3 m ρ c (Proc.devRef .tc main_v3) = W2 m ρ c (Proc.devRef .tc main_v3)).trans (W2_v3 m ρ c)
theorem W3_v25 : W3 m ρ c (Proc.devRef .tc main_v25) = nrm m c :=
  (by host_keeps hostOps1 : W3 m ρ c (Proc.devRef .tc main_v25) = W2 m ρ c (Proc.devRef .tc main_v25)).trans (W2_v25 m ρ c)
theorem W3_v27 : W3 m ρ c (Proc.devRef .tc main_v27) = nsCol m c :=
  (by host_keeps hostOps1 : W3 m ρ c (Proc.devRef .tc main_v27) = W2 m ρ c (Proc.devRef .tc main_v27)).trans (W2_v27 m ρ c)
theorem W3_v28 : W3 m ρ c (Proc.devRef .tc main_v28) = Z1 m c :=
  (by host_keeps hostOps1 : W3 m ρ c (Proc.devRef .tc main_v28) = W2 m ρ c (Proc.devRef .tc main_v28)).trans (W2_v28 m ρ c)
theorem W3_v41 : W3 m ρ c (Proc.devRef .tc main_v41) = Cert.Gcn.aggregate (src m c) (dst m c) (nrm m c) (Z1 m c) := by
  show StableHlo.after hostOps1 (W2 m ρ c) (Proc.devRef .tc main_v41) = _
  after_results_simp
  rw [W2_v1 m ρ c, W2_v3 m ρ c, W2_v25 m ρ c, W2_v28 m ρ c]
  rfl
theorem W3_v42 : W3 m ρ c (Proc.devRef .tc main_v42) = shapeCast _ (m ((c : Thread nD τ).loc main_arg4)) shapeCasts_S128_S1x128 := by
  show StableHlo.after hostOps1 (W2 m ρ c) (Proc.devRef .tc main_v42) = _
  after_results_simp
  rw [W2_arg4 m ρ c]
  rfl

/-! ## After the second and third launches: the first layer's features and the second layer's product -/

theorem W4_arg2 : W4 m ρ c (Proc.devRef .tc main_arg2) = m ((c : Thread nD τ).loc main_arg2) :=
  (W4_of_ne m ρ c main_arg2 (by decide)).trans (W3_arg2 m ρ c)
theorem W4_arg5 : W4 m ρ c (Proc.devRef .tc main_arg5) = m ((c : Thread nD τ).loc main_arg5) :=
  (W4_of_ne m ρ c main_arg5 (by decide)).trans (W3_arg5 m ρ c)
theorem W4_arg6 : W4 m ρ c (Proc.devRef .tc main_arg6) = m ((c : Thread nD τ).loc main_arg6) :=
  (W4_of_ne m ρ c main_arg6 (by decide)).trans (W3_arg6 m ρ c)
theorem W4_arg7 : W4 m ρ c (Proc.devRef .tc main_arg7) = m ((c : Thread nD τ).loc main_arg7) :=
  (W4_of_ne m ρ c main_arg7 (by decide)).trans (W3_arg7 m ρ c)
theorem W4_arg8 : W4 m ρ c (Proc.devRef .tc main_arg8) = m ((c : Thread nD τ).loc main_arg8) :=
  (W4_of_ne m ρ c main_arg8 (by decide)).trans (W3_arg8 m ρ c)
theorem W4_arg9 : W4 m ρ c (Proc.devRef .tc main_arg9) = m ((c : Thread nD τ).loc main_arg9) :=
  (W4_of_ne m ρ c main_arg9 (by decide)).trans (W3_arg9 m ρ c)
theorem W4_arg10 : W4 m ρ c (Proc.devRef .tc main_arg10) = m ((c : Thread nD τ).loc main_arg10) :=
  (W4_of_ne m ρ c main_arg10 (by decide)).trans (W3_arg10 m ρ c)
theorem W4_v1 : W4 m ρ c (Proc.devRef .tc main_v1) = src m c :=
  (W4_of_ne m ρ c main_v1 (by decide)).trans (W3_v1 m ρ c)
theorem W4_v3 : W4 m ρ c (Proc.devRef .tc main_v3) = dst m c :=
  (W4_of_ne m ρ c main_v3 (by decide)).trans (W3_v3 m ρ c)
theorem W4_v25 : W4 m ρ c (Proc.devRef .tc main_v25) = nrm m c :=
  (W4_of_ne m ρ c main_v25 (by decide)).trans (W3_v25 m ρ c)
theorem W4_v27 : W4 m ρ c (Proc.devRef .tc main_v27) = nsCol m c :=
  ((W4_arr m ρ c 2).trans (((dat1 (V3 m ρ) c).arrAt_in 2 rfl _).trans (A_eq1 (V3 m ρ) c 2))).trans (W3_v27 m ρ c)
theorem W4_v43 : W4 m ρ c (Proc.devRef .tc main_v43) = H1 m c :=
  (W4_arr m ρ c 4).trans ((Cert.KernelIdeal.RegionCombine.comb1 (V3 m ρ) c (Cert.Gcn.selfNorm (dst m c))
    (m ((c : Thread nD τ).loc main_arg4)) (W3_v27 m ρ c) (W3_v42 m ρ c)).trans
    (congrArg₂ (fun a z => Cert.Gcn.combine a z (Cert.Gcn.selfNorm (dst m c)) (m ((c : Thread nD τ).loc main_arg4)))
      (W3_v41 m ρ c) (W3_v28 m ρ c)))

theorem W5_arg2 : W5 m ρ c (Proc.devRef .tc main_arg2) = m ((c : Thread nD τ).loc main_arg2) :=
  (W5_of_ne m ρ c main_arg2 (by decide)).trans (W4_arg2 m ρ c)
theorem W5_arg6 : W5 m ρ c (Proc.devRef .tc main_arg6) = m ((c : Thread nD τ).loc main_arg6) :=
  (W5_of_ne m ρ c main_arg6 (by decide)).trans (W4_arg6 m ρ c)
theorem W5_arg7 : W5 m ρ c (Proc.devRef .tc main_arg7) = m ((c : Thread nD τ).loc main_arg7) :=
  (W5_of_ne m ρ c main_arg7 (by decide)).trans (W4_arg7 m ρ c)
theorem W5_arg8 : W5 m ρ c (Proc.devRef .tc main_arg8) = m ((c : Thread nD τ).loc main_arg8) :=
  (W5_of_ne m ρ c main_arg8 (by decide)).trans (W4_arg8 m ρ c)
theorem W5_arg9 : W5 m ρ c (Proc.devRef .tc main_arg9) = m ((c : Thread nD τ).loc main_arg9) :=
  (W5_of_ne m ρ c main_arg9 (by decide)).trans (W4_arg9 m ρ c)
theorem W5_arg10 : W5 m ρ c (Proc.devRef .tc main_arg10) = m ((c : Thread nD τ).loc main_arg10) :=
  (W5_of_ne m ρ c main_arg10 (by decide)).trans (W4_arg10 m ρ c)
theorem W5_v1 : W5 m ρ c (Proc.devRef .tc main_v1) = src m c :=
  (W5_of_ne m ρ c main_v1 (by decide)).trans (W4_v1 m ρ c)
theorem W5_v3 : W5 m ρ c (Proc.devRef .tc main_v3) = dst m c :=
  (W5_of_ne m ρ c main_v3 (by decide)).trans (W4_v3 m ρ c)
theorem W5_v25 : W5 m ρ c (Proc.devRef .tc main_v25) = nrm m c :=
  (W5_of_ne m ρ c main_v25 (by decide)).trans (W4_v25 m ρ c)
theorem W5_v27 : W5 m ρ c (Proc.devRef .tc main_v27) = nsCol m c :=
  (W5_of_ne m ρ c main_v27 (by decide)).trans (W4_v27 m ρ c)
theorem W5_v44 : W5 m ρ c (Proc.devRef .tc main_v44) = Z2 m c :=
  (W5_arr m ρ c 2).trans ((Cert.KernelIdeal.RegionMatmul.mm2 (V4 m ρ) c).trans
    (congrArg₂ Cert.Gcn.mm (W4_v43 m ρ c) (W4_arg5 m ρ c)))

/-! ## The second layer -/

theorem W6_arg2 : W6 m ρ c (Proc.devRef .tc main_arg2) = m ((c : Thread nD τ).loc main_arg2) :=
  (by host_keeps hostOps3 : W6 m ρ c (Proc.devRef .tc main_arg2) = W5 m ρ c (Proc.devRef .tc main_arg2)).trans (W5_arg2 m ρ c)
theorem W6_arg7 : W6 m ρ c (Proc.devRef .tc main_arg7) = m ((c : Thread nD τ).loc main_arg7) :=
  (by host_keeps hostOps3 : W6 m ρ c (Proc.devRef .tc main_arg7) = W5 m ρ c (Proc.devRef .tc main_arg7)).trans (W5_arg7 m ρ c)
theorem W6_arg8 : W6 m ρ c (Proc.devRef .tc main_arg8) = m ((c : Thread nD τ).loc main_arg8) :=
  (by host_keeps hostOps3 : W6 m ρ c (Proc.devRef .tc main_arg8) = W5 m ρ c (Proc.devRef .tc main_arg8)).trans (W5_arg8 m ρ c)
theorem W6_arg9 : W6 m ρ c (Proc.devRef .tc main_arg9) = m ((c : Thread nD τ).loc main_arg9) :=
  (by host_keeps hostOps3 : W6 m ρ c (Proc.devRef .tc main_arg9) = W5 m ρ c (Proc.devRef .tc main_arg9)).trans (W5_arg9 m ρ c)
theorem W6_arg10 : W6 m ρ c (Proc.devRef .tc main_arg10) = m ((c : Thread nD τ).loc main_arg10) :=
  (by host_keeps hostOps3 : W6 m ρ c (Proc.devRef .tc main_arg10) = W5 m ρ c (Proc.devRef .tc main_arg10)).trans (W5_arg10 m ρ c)
theorem W6_v1 : W6 m ρ c (Proc.devRef .tc main_v1) = src m c :=
  (by host_keeps hostOps3 : W6 m ρ c (Proc.devRef .tc main_v1) = W5 m ρ c (Proc.devRef .tc main_v1)).trans (W5_v1 m ρ c)
theorem W6_v3 : W6 m ρ c (Proc.devRef .tc main_v3) = dst m c :=
  (by host_keeps hostOps3 : W6 m ρ c (Proc.devRef .tc main_v3) = W5 m ρ c (Proc.devRef .tc main_v3)).trans (W5_v3 m ρ c)
theorem W6_v25 : W6 m ρ c (Proc.devRef .tc main_v25) = nrm m c :=
  (by host_keeps hostOps3 : W6 m ρ c (Proc.devRef .tc main_v25) = W5 m ρ c (Proc.devRef .tc main_v25)).trans (W5_v25 m ρ c)
theorem W6_v27 : W6 m ρ c (Proc.devRef .tc main_v27) = nsCol m c :=
  (by host_keeps hostOps3 : W6 m ρ c (Proc.devRef .tc main_v27) = W5 m ρ c (Proc.devRef .tc main_v27)).trans (W5_v27 m ρ c)
theorem W6_v44 : W6 m ρ c (Proc.devRef .tc main_v44) = Z2 m c :=
  (by host_keeps hostOps3 : W6 m ρ c (Proc.devRef .tc main_v44) = W5 m ρ c (Proc.devRef .tc main_v44)).trans (W5_v44 m ρ c)
theorem W6_v57 : W6 m ρ c (Proc.devRef .tc main_v57) = Cert.Gcn.aggregate (src m c) (dst m c) (nrm m c) (Z2 m c) := by
  show StableHlo.after hostOps3 (W5 m ρ c) (Proc.devRef .tc main_v57) = _
  after_results_simp
  rw [W5_v1 m ρ c, W5_v3 m ρ c, W5_v25 m ρ c, W5_v44 m ρ c]
  rfl
theorem W6_v58 : W6 m ρ c (Proc.devRef .tc main_v58) = shapeCast _ (m ((c : Thread nD τ).loc main_arg6)) shapeCasts_S128_S1x128 := by
  show StableHlo.after hostOps3 (W5 m ρ c) (Proc.devRef .tc main_v58) = _
  after_results_simp
  rw [W5_arg6 m ρ c]
  rfl

theorem W7_arg2 : W7 m ρ c (Proc.devRef .tc main_arg2) = m ((c : Thread nD τ).loc main_arg2) :=
  (W7_of_ne m ρ c main_arg2 (by decide)).trans (W6_arg2 m ρ c)
theorem W7_arg7 : W7 m ρ c (Proc.devRef .tc main_arg7) = m ((c : Thread nD τ).loc main_arg7) :=
  (W7_of_ne m ρ c main_arg7 (by decide)).trans (W6_arg7 m ρ c)
theorem W7_arg8 : W7 m ρ c (Proc.devRef .tc main_arg8) = m ((c : Thread nD τ).loc main_arg8) :=
  (W7_of_ne m ρ c main_arg8 (by decide)).trans (W6_arg8 m ρ c)
theorem W7_arg9 : W7 m ρ c (Proc.devRef .tc main_arg9) = m ((c : Thread nD τ).loc main_arg9) :=
  (W7_of_ne m ρ c main_arg9 (by decide)).trans (W6_arg9 m ρ c)
theorem W7_arg10 : W7 m ρ c (Proc.devRef .tc main_arg10) = m ((c : Thread nD τ).loc main_arg10) :=
  (W7_of_ne m ρ c main_arg10 (by decide)).trans (W6_arg10 m ρ c)
theorem W7_v1 : W7 m ρ c (Proc.devRef .tc main_v1) = src m c :=
  (W7_of_ne m ρ c main_v1 (by decide)).trans (W6_v1 m ρ c)
theorem W7_v3 : W7 m ρ c (Proc.devRef .tc main_v3) = dst m c :=
  (W7_of_ne m ρ c main_v3 (by decide)).trans (W6_v3 m ρ c)
theorem W7_v25 : W7 m ρ c (Proc.devRef .tc main_v25) = nrm m c :=
  (W7_of_ne m ρ c main_v25 (by decide)).trans (W6_v25 m ρ c)
theorem W7_v27 : W7 m ρ c (Proc.devRef .tc main_v27) = nsCol m c :=
  ((W7_arr m ρ c 2).trans (((dat3 (V6 m ρ) c).arrAt_in 2 rfl _).trans (A_eq3 (V6 m ρ) c 2))).trans (W6_v27 m ρ c)
theorem W7_v59 : W7 m ρ c (Proc.devRef .tc main_v59) = H2 m c :=
  (W7_arr m ρ c 4).trans ((Cert.KernelIdeal.RegionCombine.comb3 (V6 m ρ) c (Cert.Gcn.selfNorm (dst m c))
    (m ((c : Thread nD τ).loc main_arg6)) (W6_v27 m ρ c) (W6_v58 m ρ c)).trans
    (congrArg₂ (fun a z => Cert.Gcn.combine a z (Cert.Gcn.selfNorm (dst m c)) (m ((c : Thread nD τ).loc main_arg6)))
      (W6_v57 m ρ c) (W6_v44 m ρ c)))

theorem W8_arg2 : W8 m ρ c (Proc.devRef .tc main_arg2) = m ((c : Thread nD τ).loc main_arg2) :=
  (W8_of_ne m ρ c main_arg2 (by decide)).trans (W7_arg2 m ρ c)
theorem W8_arg8 : W8 m ρ c (Proc.devRef .tc main_arg8) = m ((c : Thread nD τ).loc main_arg8) :=
  (W8_of_ne m ρ c main_arg8 (by decide)).trans (W7_arg8 m ρ c)
theorem W8_arg9 : W8 m ρ c (Proc.devRef .tc main_arg9) = m ((c : Thread nD τ).loc main_arg9) :=
  (W8_of_ne m ρ c main_arg9 (by decide)).trans (W7_arg9 m ρ c)
theorem W8_arg10 : W8 m ρ c (Proc.devRef .tc main_arg10) = m ((c : Thread nD τ).loc main_arg10) :=
  (W8_of_ne m ρ c main_arg10 (by decide)).trans (W7_arg10 m ρ c)
theorem W8_v1 : W8 m ρ c (Proc.devRef .tc main_v1) = src m c :=
  (W8_of_ne m ρ c main_v1 (by decide)).trans (W7_v1 m ρ c)
theorem W8_v3 : W8 m ρ c (Proc.devRef .tc main_v3) = dst m c :=
  (W8_of_ne m ρ c main_v3 (by decide)).trans (W7_v3 m ρ c)
theorem W8_v25 : W8 m ρ c (Proc.devRef .tc main_v25) = nrm m c :=
  (W8_of_ne m ρ c main_v25 (by decide)).trans (W7_v25 m ρ c)
theorem W8_v27 : W8 m ρ c (Proc.devRef .tc main_v27) = nsCol m c :=
  (W8_of_ne m ρ c main_v27 (by decide)).trans (W7_v27 m ρ c)
theorem W8_v60 : W8 m ρ c (Proc.devRef .tc main_v60) = Z3 m c :=
  (W8_arr m ρ c 2).trans ((Cert.KernelIdeal.RegionMatmul.mm4 (V7 m ρ) c).trans
    (congrArg₂ Cert.Gcn.mm (W7_v59 m ρ c) (W7_arg7 m ρ c)))

/-! ## The third layer -/

theorem W9_arg2 : W9 m ρ c (Proc.devRef .tc main_arg2) = m ((c : Thread nD τ).loc main_arg2) :=
  (by host_keeps hostOps5 : W9 m ρ c (Proc.devRef .tc main_arg2) = W8 m ρ c (Proc.devRef .tc main_arg2)).trans (W8_arg2 m ρ c)
theorem W9_arg9 : W9 m ρ c (Proc.devRef .tc main_arg9) = m ((c : Thread nD τ).loc main_arg9) :=
  (by host_keeps hostOps5 : W9 m ρ c (Proc.devRef .tc main_arg9) = W8 m ρ c (Proc.devRef .tc main_arg9)).trans (W8_arg9 m ρ c)
theorem W9_arg10 : W9 m ρ c (Proc.devRef .tc main_arg10) = m ((c : Thread nD τ).loc main_arg10) :=
  (by host_keeps hostOps5 : W9 m ρ c (Proc.devRef .tc main_arg10) = W8 m ρ c (Proc.devRef .tc main_arg10)).trans (W8_arg10 m ρ c)
theorem W9_v27 : W9 m ρ c (Proc.devRef .tc main_v27) = nsCol m c :=
  (by host_keeps hostOps5 : W9 m ρ c (Proc.devRef .tc main_v27) = W8 m ρ c (Proc.devRef .tc main_v27)).trans (W8_v27 m ρ c)
theorem W9_v60 : W9 m ρ c (Proc.devRef .tc main_v60) = Z3 m c :=
  (by host_keeps hostOps5 : W9 m ρ c (Proc.devRef .tc main_v60) = W8 m ρ c (Proc.devRef .tc main_v60)).trans (W8_v60 m ρ c)
theorem W9_v73 : W9 m ρ c (Proc.devRef .tc main_v73) = Cert.Gcn.aggregate (src m c) (dst m c) (nrm m c) (Z3 m c) := by
  show StableHlo.after hostOps5 (W8 m ρ c) (Proc.devRef .tc main_v73) = _
  after_results_simp
  rw [W8_v1 m ρ c, W8_v3 m ρ c, W8_v25 m ρ c, W8_v60 m ρ c]
  rfl
theorem W9_v74 : W9 m ρ c (Proc.devRef .tc main_v74) = shapeCast _ (m ((c : Thread nD τ).loc main_arg8)) shapeCasts_S128_S1x128 := by
  show StableHlo.after hostOps5 (W8 m ρ c) (Proc.devRef .tc main_v74) = _
  after_results_simp
  rw [W8_arg8 m ρ c]
  rfl

theorem W10_arg2 : W10 m ρ c (Proc.devRef .tc main_arg2) = m ((c : Thread nD τ).loc main_arg2) :=
  (W10_of_ne m ρ c main_arg2 (by decide)).trans (W9_arg2 m ρ c)
theorem W10_arg9 : W10 m ρ c (Proc.devRef .tc main_arg9) = m ((c : Thread nD τ).loc main_arg9) :=
  (W10_of_ne m ρ c main_arg9 (by decide)).trans (W9_arg9 m ρ c)
theorem W10_arg10 : W10 m ρ c (Proc.devRef .tc main_arg10) = m ((c : Thread nD τ).loc main_arg10) :=
  (W10_of_ne m ρ c main_arg10 (by decide)).trans (W9_arg10 m ρ c)
theorem W10_v75 : W10 m ρ c (Proc.devRef .tc main_v75) = H3 m c :=
  (W10_arr m ρ c 4).trans ((Cert.KernelIdeal.RegionCombine.comb5 (V9 m ρ) c (Cert.Gcn.selfNorm (dst m c))
    (m ((c : Thread nD τ).loc main_arg8)) (W9_v27 m ρ c) (W9_v74 m ρ c)).trans
    (congrArg₂ (fun a z => Cert.Gcn.combine a z (Cert.Gcn.selfNorm (dst m c)) (m ((c : Thread nD τ).loc main_arg8)))
      (W9_v73 m ρ c) (W9_v60 m ρ c)))

/-! ## The last linear map and the mean over each graph -/

theorem W11_arg2 : W11 m ρ c (Proc.devRef .tc main_arg2) = m ((c : Thread nD τ).loc main_arg2) :=
  (by host_keeps hostOps6 : W11 m ρ c (Proc.devRef .tc main_arg2) = W10 m ρ c (Proc.devRef .tc main_arg2)).trans (W10_arg2 m ρ c)
theorem W11_arg9 : W11 m ρ c (Proc.devRef .tc main_arg9) = m ((c : Thread nD τ).loc main_arg9) :=
  (by host_keeps hostOps6 : W11 m ρ c (Proc.devRef .tc main_arg9) = W10 m ρ c (Proc.devRef .tc main_arg9)).trans (W10_arg9 m ρ c)
theorem W11_v75 : W11 m ρ c (Proc.devRef .tc main_v75) = H3 m c :=
  (by host_keeps hostOps6 : W11 m ρ c (Proc.devRef .tc main_v75) = W10 m ρ c (Proc.devRef .tc main_v75)).trans (W10_v75 m ρ c)
theorem W11_v76 : W11 m ρ c (Proc.devRef .tc main_v76) = shapeCast _ (m ((c : Thread nD τ).loc main_arg10)) shapeCasts_S6_S1x6 := by
  show StableHlo.after hostOps6 (W10 m ρ c) (Proc.devRef .tc main_v76) = _
  after_results_simp
  rw [W10_arg10 m ρ c]
  rfl

theorem W12_arg2 : W12 m ρ c (Proc.devRef .tc main_arg2) = m ((c : Thread nD τ).loc main_arg2) :=
  (W12_of_ne m ρ c main_arg2 (by decide)).trans (W11_arg2 m ρ c)
theorem W12_v77 : W12 m ρ c (Proc.devRef .tc main_v77)
    = Cert.Gcn.head (H3 m c) (m ((c : Thread nD τ).loc main_arg9)) (m ((c : Thread nD τ).loc main_arg10)) :=
  (W12_arr m ρ c 3).trans ((Cert.KernelIdeal.RegionMatmul.head6 (V11 m ρ) c (m ((c : Thread nD τ).loc main_arg10)) (W11_v76 m ρ c)).trans
    (congrArg₂ (fun h w => Cert.Gcn.head h w (m ((c : Thread nD τ).loc main_arg10))) (W11_v75 m ρ c) (W11_arg9 m ρ c)))

/-- The result buffer after the last stretch of host operations is the whole network at the launch contents of the
    arguments. -/
theorem W13_v89 : W13 m ρ c (Proc.devRef .tc main_v89)
    = Cert.Gcn.net (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10)) := by
  show StableHlo.after hostOps7 (W12 m ρ c) (Proc.devRef .tc main_v89) = _
  after_results_simp
  rw [W12_arg2 m ρ c, W12_v77 m ρ c]
  rfl

end Cert.KernelIdeal.Chain

end
-- ==== Proof.lean ====
/-
  The kernel computes a three-layer graph convolution network with a per-graph mean: dense steps (the product with each
  layer's weights; the combination of the arrivals, the node's own scaled row and the bias under tanh; the last linear
  map with tanh) run as seven kernel launches over blocks of 5000 nodes, and the gathers along the edges, the sums into
  the nodes and the final per-graph mean run as host operations between them.  The reference computes the same network
  with host operations only.

  At the ideal values both programs end with the network of Proof/Spec.lean applied to the arguments: the reference
  because its operations composed are that term (Proof/RefNet.lean), the kernel because each launch's output array is
  the corresponding whole-array step (Proof/RegionMatmul.lean, Proof/RegionCombine.lean) and the host operations between
  the launches are the network's own (Proof/Chain.lean), read off the program's run (Proof/RunMain.lean).  No law of
  arithmetic beyond reading a product entry as a sum is used, so the precondition is never opened.  The word-level
  kernel and its idealization are the same text, so nothing is owed for the idealization.
-/
import proofs.«113640_j1889785611050_1_alg».proof.Defs
import proofs.«113640_j1889785611050_1_alg».proof.Proof.Gen.Kernel
import proofs.«113640_j1889785611050_1_alg».proof.Proof.Gen.Kernel.Skeleton
import proofs.«113640_j1889785611050_1_alg».proof.Proof.Gen.Kernel.Launch
import proofs.«113640_j1889785611050_1_alg».proof.Proof.Gen.Kernel.Points
import proofs.«113640_j1889785611050_1_alg».proof.Proof.Gen.Kernel.Frame
import proofs.«113640_j1889785611050_1_alg».proof.Proof.Gen.KernelIdeal
import proofs.«113640_j1889785611050_1_alg».proof.Proof.Gen.KernelIdeal.Skeleton
import proofs.«113640_j1889785611050_1_alg».proof.Proof.Gen.KernelIdeal.Launch
import proofs.«113640_j1889785611050_1_alg».proof.Proof.Gen.KernelIdeal.Points
import proofs.«113640_j1889785611050_1_alg».proof.Proof.Gen.KernelIdeal.Frame
import proofs.«113640_j1889785611050_1_alg».proof.Proof.Gen.ReferenceIdeal
import proofs.«113640_j1889785611050_1_alg».proof.Proof.Gen.ReferenceIdeal.Run
import proofs.«113640_j1889785611050_1_alg».proof.Proof.Gen.Pre_finite_inputs
import proofs.«113640_j1889785611050_1_alg».proof.Proof.Spec
import proofs.«113640_j1889785611050_1_alg».proof.Proof.RefNet
import proofs.«113640_j1889785611050_1_alg».proof.Proof.RunMain
import proofs.«113640_j1889785611050_1_alg».proof.Proof.Chain
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as launched: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the network at those arguments. -/
theorem algebraic : Cert.algebraic_KernelIdeal_ReferenceIdeal := by
  intro m ρ m' ρ' _ hagree
  refine ⟨fun c => Cert.Gcn.net (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · exact (θ_run Cert.KernelIdeal.defs _ _).mono
      (fun _ h c => ⟨(h c).1.trans (Cert.KernelIdeal.Chain.W13_v89 m ρ c), (h c).2⟩)
      (Cert.KernelIdeal.RunValue.run_main (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10⟩ := hagree c
    rw [Cert.ReferenceIdeal.RefNet.res_eq, h0, h1, h2, h3, h4, h5, h6, h7, h8, h9, h10]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
